-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v80) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S262144x3 : Shape := ⟨2, ![262144, 3]⟩
abbrev S128x3 : Shape := ⟨2, ![128, 3]⟩
abbrev S128 : Shape := ⟨1, ![128]⟩
abbrev S7x128x128 : Shape := ⟨3, ![7, 128, 128]⟩
abbrev S7x128 : Shape := ⟨2, ![7, 128]⟩
abbrev S3x128 : Shape := ⟨2, ![3, 128]⟩
abbrev S3 : Shape := ⟨1, ![3]⟩
abbrev S_ : Shape := ⟨0, ![]⟩

class Facts : Prop where
  bcast_S_S262144x3 : S_.BroadcastsInDim S262144x3 (![] : Fin 0 → Fin S262144x3.rank)
  reducesTo_S262144x3_S_d0_1 : S262144x3.ReducesTo [0, 1] S_
  h_S_ : 0 < S_.numel
  bcast_S_S128x3 : S_.BroadcastsInDim S128x3 (![] : Fin 0 → Fin S128x3.rank)
  reducesTo_S128x3_S_d0_1 : S128x3.ReducesTo [0, 1] S_
  bcast_S_S128 : S_.BroadcastsInDim S128 (![] : Fin 0 → Fin S128.rank)
  reducesTo_S128_S_d0 : S128.ReducesTo [0] S_
  bcast_S_S7x128x128 : S_.BroadcastsInDim S7x128x128 (![] : Fin 0 → Fin S7x128x128.rank)
  reducesTo_S7x128x128_S_d0_1_2 : S7x128x128.ReducesTo [0, 1, 2] S_
  bcast_S_S7x128 : S_.BroadcastsInDim S7x128 (![] : Fin 0 → Fin S7x128.rank)
  reducesTo_S7x128_S_d0_1 : S7x128.ReducesTo [0, 1] S_
  bcast_S_S3x128 : S_.BroadcastsInDim S3x128 (![] : Fin 0 → Fin S3x128.rank)
  reducesTo_S3x128_S_d0_1 : S3x128.ReducesTo [0, 1] S_
  bcast_S_S3 : S_.BroadcastsInDim S3 (![] : Fin 0 → Fin S3.rank)
  reducesTo_S3_S_d0 : S3.ReducesTo [0] S_

variable [Facts]

def fn_part1 {F : FTy → Type} [FloatOps F] (main_arg4 : FVec F S7x128 .f32) (main_arg5 : FVec F S3x128 .f32) (main_arg6 : FVec F S3 .f32) (main_v13 : IVec S_ 1) (main_v16 : IVec S7x128x128 1) : IVec S_ 1 :=
  let main_c_5 : IVec S_ 1 := constantI S_ 1 1#1
  let main_v17 : IVec S_ 1 := (fun x v => Host.reduce IntOp.andi x v reducesTo_S7x128x128_S_d0_1_2 h_S_) main_v16 main_c_5
  let main_v18 : IVec S_ 1 := andi main_v13 main_v17
  let main_v19 : FVec F S7x128 .f32 := Host.absf main_arg4
  let main_cst_6 : FVec F S_ .f32 := constant S_ .f32 0x7F800000#32
  let main_v20 : FVec F S7x128 .f32 := broadcastInDim S7x128 ![] bcast_S_S7x128 main_cst_6
  let main_v21 : IVec S7x128 1 := cmpf .olt main_v19 main_v20
  let main_c_7 : IVec S_ 1 := constantI S_ 1 1#1
  let main_v22 : IVec S_ 1 := (fun x v => Host.reduce IntOp.andi x v reducesTo_S7x128_S_d0_1 h_S_) main_v21 main_c_7
  let main_v23 : IVec S_ 1 := andi main_v18 main_v22
  let main_v24 : FVec F S3x128 .f32 := Host.absf main_arg5
  let main_cst_8 : FVec F S_ .f32 := constant S_ .f32 0x7F800000#32
  let main_v25 : FVec F S3x128 .f32 := broadcastInDim S3x128 ![] bcast_S_S3x128 main_cst_8
  let main_v26 : IVec S3x128 1 := cmpf .olt main_v24 main_v25
  let main_c_9 : IVec S_ 1 := constantI S_ 1 1#1
  let main_v27 : IVec S_ 1 := (fun x v => Host.reduce IntOp.andi x v reducesTo_S3x128_S_d0_1 h_S_) main_v26 main_c_9
  let main_v28 : IVec S_ 1 := andi main_v23 main_v27
  let main_v29 : FVec F S3 .f32 := Host.absf main_arg6
  let main_cst_10 : FVec F S_ .f32 := constant S_ .f32 0x7F800000#32
  let main_v30 : FVec F S3 .f32 := broadcastInDim S3 ![] bcast_S_S3 main_cst_10
  let main_v31 : IVec S3 1 := cmpf .olt main_v29 main_v30
  let main_c_11 : IVec S_ 1 := constantI S_ 1 1#1
  let main_v32 : IVec S_ 1 := (fun x v => Host.reduce IntOp.andi x v reducesTo_S3_S_d0 h_S_) main_v31 main_c_11
  let main_v33 : IVec S_ 1 := andi main_v28 main_v32
  main_v33

def fn {F : FTy → Type} [FloatOps F] (main_arg0 : FVec F S262144x3 .f32) (main_arg1 : FVec F S128x3 .f32) (main_arg2 : FVec F S128 .f32) (main_arg3 : FVec F S7x128x128 .f32) (main_arg4 : FVec F S7x128 .f32) (main_arg5 : FVec F S3x128 .f32) (main_arg6 : FVec F S3 .f32) : IVec S_ 1 :=
  let main_v0 : FVec F S262144x3 .f32 := Host.absf main_arg0
  let main_cst : FVec F S_ .f32 := constant S_ .f32 0x7F800000#32
  let main_v1 : FVec F S262144x3 .f32 := broadcastInDim S262144x3 ![] bcast_S_S262144x3 main_cst
  let main_v2 : IVec S262144x3 1 := cmpf .olt main_v0 main_v1
  let main_c : IVec S_ 1 := constantI S_ 1 1#1
  let main_v3 : IVec S_ 1 := (fun x v => Host.reduce IntOp.andi x v reducesTo_S262144x3_S_d0_1 h_S_) main_v2 main_c
  let main_v4 : FVec F S128x3 .f32 := Host.absf main_arg1
  let main_cst_0 : FVec F S_ .f32 := constant S_ .f32 0x7F800000#32
  let main_v5 : FVec F S128x3 .f32 := broadcastInDim S128x3 ![] bcast_S_S128x3 main_cst_0
  let main_v6 : IVec S128x3 1 := cmpf .olt main_v4 main_v5
  let main_c_1 : IVec S_ 1 := constantI S_ 1 1#1
  let main_v7 : IVec S_ 1 := (fun x v => Host.reduce IntOp.andi x v reducesTo_S128x3_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S7x128x128 .f32 := Host.absf main_arg3
  let main_cst_4 : FVec F S_ .f32 := constant S_ .f32 0x7F800000#32
  let main_v15 : FVec F S7x128x128 .f32 := broadcastInDim S7x128x128 ![] bcast_S_S7x128x128 main_cst_4
  let main_v16 : IVec S7x128x128 1 := cmpf .olt main_v14 main_v15
  fn_part1 (F := F) main_arg4 main_arg5 main_arg6 main_v13 main_v16
-- ==== Kernel.lean ====
abbrev S262144x3 : Shape := ⟨2, ![262144, 3]⟩
abbrev S128x3 : Shape := ⟨2, ![128, 3]⟩
abbrev S128 : Shape := ⟨1, ![128]⟩
abbrev S7x128x128 : Shape := ⟨3, ![7, 128, 128]⟩
abbrev S7x128 : Shape := ⟨2, ![7, 128]⟩
abbrev S3x128 : Shape := ⟨2, ![3, 128]⟩
abbrev S3 : Shape := ⟨1, ![3]⟩
abbrev S3x262144 : Shape := ⟨2, ![3, 262144]⟩
abbrev S3x8192 : Shape := ⟨2, ![3, 8192]⟩
abbrev S128x1 : Shape := ⟨2, ![128, 1]⟩
abbrev S128x8192 : Shape := ⟨2, ![128, 8192]⟩
abbrev S1x8192 : Shape := ⟨2, ![1, 8192]⟩
abbrev S1x128x128 : Shape := ⟨3, ![1, 128, 128]⟩
abbrev S128x128 : Shape := ⟨2, ![128, 128]⟩
abbrev S1x128 : Shape := ⟨2, ![1, 128]⟩
abbrev S3x1 : Shape := ⟨2, ![3, 1]⟩

abbrev nBuf : Space → Nat
  | .hbm => 12
  | .vmem => 10
  | .smem => 0
  | _ => 0

abbrev bufTy : (tb : Table) → Fin (tcTables nBuf tb) → BufTy
  | .hbm, ⟨0, _⟩ => ⟨S262144x3, .f32⟩
  | .hbm, ⟨1, _⟩ => ⟨S128x3, .f32⟩
  | .hbm, ⟨2, _⟩ => ⟨S128, .f32⟩
  | .hbm, ⟨3, _⟩ => ⟨S7x128x128, .f32⟩
  | .hbm, ⟨4, _⟩ => ⟨S7x128, .f32⟩
  | .hbm, ⟨5, _⟩ => ⟨S3x128, .f32⟩
  | .hbm, ⟨6, _⟩ => ⟨S3, .f32⟩
  | .hbm, ⟨7, _⟩ => ⟨S3x262144, .f32⟩
  | .hbm, ⟨8, _⟩ => ⟨S7x128x128, .bf16⟩
  | .hbm, ⟨9, _⟩ => ⟨S3x128, .bf16⟩
  | .hbm, ⟨10, _⟩ => ⟨S3x262144, .f32⟩
  | .hbm, ⟨11, _⟩ => ⟨S262144x3, .f32⟩
  | .local _ .vmem, ⟨0, _⟩ => ⟨S3x8192, .f32⟩
  | .local _ .vmem, ⟨1, _⟩ => ⟨S3x8192, .f32⟩
  | .local _ .vmem, ⟨2, _⟩ => ⟨S128x3, .f32⟩
  | .local _ .vmem, ⟨3, _⟩ => ⟨S128, .f32⟩
  | .local _ .vmem, ⟨4, _⟩ => ⟨S7x128x128, .bf16⟩
  | .local _ .vmem, ⟨5, _⟩ => ⟨S7x128, .f32⟩
  | .local _ .vmem, ⟨6, _⟩ => ⟨S3x128, .bf16⟩
  | .local _ .vmem, ⟨7, _⟩ => ⟨S3, .f32⟩
  | .local _ .vmem, ⟨8, _⟩ => ⟨S3x8192, .f32⟩
  | .local _ .vmem, ⟨9, _⟩ => ⟨S3x8192, .f32⟩
  | _, _ => ⟨S262144x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S3x8192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x3 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S7x128x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S7x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S3x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S3 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S3x8192 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  transposes_S262144x3_S3x262144_1_0 : S262144x3.Transposes [1, 0] S3x262144
  bitsLt_bf16_f32 : FTy.bits .bf16 < FTy.bits .f32
  inb_S3x8192_S3x8192_0_0 : ∀ a, (![0, 0] : Fin 2 → Nat) a + S3x8192.size a ≤ S3x8192.size a
  h_S3x8192 : 0 < S3x8192.numel
  shapeCasts_S3x8192_S3x8192 : S3x8192.ShapeCasts S3x8192
  inb_S128x3_S128x3_0_0 : ∀ a, (![0, 0] : Fin 2 → Nat) a + S128x3.size a ≤ S128x3.size a
  h_S128x3 : 0 < S128x3.numel
  inb_S128_S128_0 : ∀ a, (![0] : Fin 1 → Nat) a + S128.size a ≤ S128.size a
  h_S128 : 0 < S128.numel
  shapeCasts_S128_S128x1 : S128.ShapeCasts S128x1
  shapeCasts_S128x1_S128x1 : S128x1.ShapeCasts S128x1
  broadcasts_S128x1_S128x8192 : S128x1.Broadcasts S128x8192
  slices_S128x3_o0_0_S128x1 : S128x3.Slices ![0, 0] S128x1
  slices_S3x8192_o0_0_S1x8192 : S3x8192.Slices ![0, 0] S1x8192
  broadcasts_S1x8192_S128x8192 : S1x8192.Broadcasts S128x8192
  slices_S128x3_o0_1_S128x1 : S128x3.Slices ![0, 1] S128x1
  slices_S3x8192_o1_0_S1x8192 : S3x8192.Slices ![1, 0] S1x8192
  slices_S128x3_o0_2_S128x1 : S128x3.Slices ![0, 2] S128x1
  slices_S3x8192_o2_0_S1x8192 : S3x8192.Slices ![2, 0] S1x8192
  inb_S7x128x128_S1x128x128_0_0_0 : ∀ a, (![0, 0, 0] : Fin 3 → Nat) a + S1x128x128.size a ≤ S7x128x128.size a
  h_S1x128x128 : 0 < S1x128x128.numel
  shapeCasts_S1x128x128_S128x128 : S1x128x128.ShapeCasts S128x128
  inb_S7x128_S1x128_0_0 : ∀ a, (![0, 0] : Fin 2 → Nat) a + S1x128.size a ≤ S7x128.size a
  h_S1x128 : 0 < S1x128.numel
  shapeCasts_S1x128_S128 : S1x128.ShapeCasts S128
  inb_S7x128x128_S1x128x128_1_0_0 : ∀ a, (![1, 0, 0] : Fin 3 → Nat) a + S1x128x128.size a ≤ S7x128x128.size a
  inb_S7x128_S1x128_1_0 : ∀ a, (![1, 0] : Fin 2 → Nat) a + S1x128.size a ≤ S7x128.size a
  inb_S7x128x128_S1x128x128_2_0_0 : ∀ a, (![2, 0, 0] : Fin 3 → Nat) a + S1x128x128.size a ≤ S7x128x128.size a
  inb_S7x128_S1x128_2_0 : ∀ a, (![2, 0] : Fin 2 → Nat) a + S1x128.size a ≤ S7x128.size a
  inb_S7x128x128_S1x128x128_3_0_0 : ∀ a, (![3, 0, 0] : Fin 3 → Nat) a + S1x128x128.size a ≤ S7x128x128.size a
  inb_S7x128_S1x128_3_0 : ∀ a, (![3, 0] : Fin 2 → Nat) a + S1x128.size a ≤ S7x128.size a
  inb_S7x128x128_S1x128x128_4_0_0 : ∀ a, (![4, 0, 0] : Fin 3 → Nat) a + S1x128x128.size a ≤ S7x128x128.size a
  inb_S7x128_S1x128_4_0 : ∀ a, (![4, 0] : Fin 2 → Nat) a + S1x128.size a ≤ S7x128.size a
  inb_S7x128x128_S1x128x128_5_0_0 : ∀ a, (![5, 0, 0] : Fin 3 → Nat) a + S1x128x128.size a ≤ S7x128x128.size a
  inb_S7x128_S1x128_5_0 : ∀ a, (![5, 0] : Fin 2 → Nat) a + S1x128.size a ≤ S7x128.size a
  inb_S7x128x128_S1x128x128_6_0_0 : ∀ a, (![6, 0, 0] : Fin 3 → Nat) a + S1x128x128.size a ≤ S7x128x128.size a
  inb_S7x128_S1x128_6_0 : ∀ a, (![6, 0] : Fin 2 → Nat) a + S1x128.size a ≤ S7x128.size a
  inb_S3x128_S3x128_0_0 : ∀ a, (![0, 0] : Fin 2 → Nat) a + S3x128.size a ≤ S3x128.size a
  h_S3x128 : 0 < S3x128.numel
  shapeCasts_S3x128_S3x128 : S3x128.ShapeCasts S3x128
  inb_S3_S3_0 : ∀ a, (![0] : Fin 1 → Nat) a + S3.size a ≤ S3.size a
  h_S3 : 0 < S3.numel
  shapeCasts_S3_S3x1 : S3.ShapeCasts S3x1
  broadcasts_S3x1_S3x8192 : S3x1.Broadcasts S3x8192
  transposes_S3x262144_S262144x3_1_0 : S3x262144.Transposes [1, 0] S262144x3
  dot_S128x128_S128x8192_S128x8192_1_0_0_1_n_n_wf : DotDims.WF S128x128 S128x8192 S128x8192 [1] [0] [0] [1] [] []
  dot_S3x128_S128x8192_S3x8192_1_0_0_1_n_n_wf : DotDims.WF S3x128 S128x8192 S3x8192 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S3x8192.size a ≤ S3x262144.size a
  hwx0_0 : ∀ i : grid0.Coords, EltTy.bits .f32 = 32 ∨ (Rect.block (s := S3x262144) S3x8192.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x3.size a ≤ S128x3.size a
  hwx0_1 : ∀ i : grid0.Coords, EltTy.bits .f32 = 32 ∨ (Rect.block (s := S128x3) S128x3.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128.size a ≤ S128.size a
  hwx0_2 : ∀ i : grid0.Coords, EltTy.bits .f32 = 32 ∨ (Rect.block (s := S128) S128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S7x128x128.size a ≤ S7x128x128.size a
  hwx0_3 : ∀ i : grid0.Coords, EltTy.bits .bf16 = 32 ∨ (Rect.block (s := S7x128x128) S7x128x128.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S7x128.size a ≤ S7x128.size a
  hwx0_4 : ∀ i : grid0.Coords, EltTy.bits .f32 = 32 ∨ (Rect.block (s := S7x128) S7x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S3x128.size a ≤ S3x128.size a
  hwx0_5 : ∀ i : grid0.Coords, EltTy.bits .bf16 = 32 ∨ (Rect.block (s := S3x128) S3x128.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S3.size a ≤ S3.size a
  hwx0_6 : ∀ i : grid0.Coords, EltTy.bits .f32 = 32 ∨ (Rect.block (s := S3) S3.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S3x8192.size a ≤ S3x262144.size a
  hwx0_7 : ∀ i : grid0.Coords, EltTy.bits .f32 = 32 ∨ (Rect.block (s := S3x262144) S3x8192.size (cc0_transform_7 i) (hinb0_7 i)).WholeWords (EltTy.packing .f32)

variable [Facts₀]

def dot_S128x128_S128x8192_S128x8192_1_0_0_1_n_n : DotDims S128x128 S128x8192 S128x8192 where
  lhsContracting := [1]
  rhsContracting := [0]
  lhsNonContracting := [0]
  rhsNonContracting := [1]
  lhsBatch := []
  rhsBatch := []
  wf := dot_S128x128_S128x8192_S128x8192_1_0_0_1_n_n_wf
def dot_S3x128_S128x8192_S3x8192_1_0_0_1_n_n : DotDims S3x128 S128x8192 S3x8192 where
  lhsContracting := [1]
  rhsContracting := [0]
  lhsNonContracting := [0]
  rhsNonContracting := [1]
  lhsBatch := []
  rhsBatch := []
  wf := dot_S3x128_S128x8192_S3x8192_1_0_0_1_n_n_wf

abbrev win0_0 : Pipeline.Window sig grid0 :=
  Pipeline.Window.ofSpec (Memref.whole main_v0) S3x8192.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x3.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S7x128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S7x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v2) S3x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S3.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v3) S3x8192.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S262144x3 : Shape := ⟨2, ![262144, 3]⟩
abbrev S128x3 : Shape := ⟨2, ![128, 3]⟩
abbrev S128 : Shape := ⟨1, ![128]⟩
abbrev S7x128x128 : Shape := ⟨3, ![7, 128, 128]⟩
abbrev S7x128 : Shape := ⟨2, ![7, 128]⟩
abbrev S3x128 : Shape := ⟨2, ![3, 128]⟩
abbrev S3 : Shape := ⟨1, ![3]⟩
abbrev S262144x128 : Shape := ⟨2, ![262144, 128]⟩
abbrev S1x128 : Shape := ⟨2, ![1, 128]⟩
abbrev S_ : Shape := ⟨0, ![]⟩
abbrev S1x128x128 : Shape := ⟨3, ![1, 128, 128]⟩
abbrev S128x128 : Shape := ⟨2, ![128, 128]⟩
abbrev S1x3 : Shape := ⟨2, ![1, 3]⟩

abbrev nBuf : Space → Nat
  | .hbm => 104
  | .vmem => 0
  | .smem => 0
  | _ => 0

abbrev bufTy : (tb : Table) → Fin (tcTables nBuf tb) → BufTy
  | .hbm, ⟨0, _⟩ => ⟨S262144x3, .f32⟩
  | .hbm, ⟨1, _⟩ => ⟨S128x3, .f32⟩
  | .hbm, ⟨2, _⟩ => ⟨S128, .f32⟩
  | .hbm, ⟨3, _⟩ => ⟨S7x128x128, .f32⟩
  | .hbm, ⟨4, _⟩ => ⟨S7x128, .f32⟩
  | .hbm, ⟨5, _⟩ => ⟨S3x128, .f32⟩
  | .hbm, ⟨6, _⟩ => ⟨S3, .f32⟩
  | .hbm, ⟨7, _⟩ => ⟨S3x128, .f32⟩
  | .hbm, ⟨8, _⟩ => ⟨S262144x128, .f32⟩
  | .hbm, ⟨9, _⟩ => ⟨S1x128, .f32⟩
  | .hbm, ⟨10, _⟩ => ⟨S262144x128, .f32⟩
  | .hbm, ⟨11, _⟩ => ⟨S262144x128, .f32⟩
  | .hbm, ⟨12, _⟩ => ⟨S_, .f32⟩
  | .hbm, ⟨13, _⟩ => ⟨S262144x128, .f32⟩
  | .hbm, ⟨14, _⟩ => ⟨S262144x128, .f32⟩
  | .hbm, ⟨15, _⟩ => ⟨S1x128x128, .f32⟩
  | .hbm, ⟨16, _⟩ => ⟨S128x128, .f32⟩
  | .hbm, ⟨17, _⟩ => ⟨S128x128, .f32⟩
  | .hbm, ⟨18, _⟩ => ⟨S262144x128, .f32⟩
  | .hbm, ⟨19, _⟩ => ⟨S1x128, .f32⟩
  | .hbm, ⟨20, _⟩ => ⟨S128, .f32⟩
  | .hbm, ⟨21, _⟩ => ⟨S1x128, .f32⟩
  | .hbm, ⟨22, _⟩ => ⟨S262144x128, .f32⟩
  | .hbm, ⟨23, _⟩ => ⟨S262144x128, .f32⟩
  | .hbm, ⟨24, _⟩ => ⟨S_, .f32⟩
  | .hbm, ⟨25, _⟩ => ⟨S262144x128, .f32⟩
  | .hbm, ⟨26, _⟩ => ⟨S262144x128, .f32⟩
  | .hbm, ⟨27, _⟩ => ⟨S1x128x128, .f32⟩
  | .hbm, ⟨28, _⟩ => ⟨S128x128, .f32⟩
  | .hbm, ⟨29, _⟩ => ⟨S128x128, .f32⟩
  | .hbm, ⟨30, _⟩ => ⟨S262144x128, .f32⟩
  | .hbm, ⟨31, _⟩ => ⟨S1x128, .f32⟩
  | .hbm, ⟨32, _⟩ => ⟨S128, .f32⟩
  | .hbm, ⟨33, _⟩ => ⟨S1x128, .f32⟩
  | .hbm, ⟨34, _⟩ => ⟨S262144x128, .f32⟩
  | .hbm, ⟨35, _⟩ => ⟨S262144x128, .f32⟩
  | .hbm, ⟨36, _⟩ => ⟨S_, .f32⟩
  | .hbm, ⟨37, _⟩ => ⟨S262144x128, .f32⟩
  | .hbm, ⟨38, _⟩ => ⟨S262144x128, .f32⟩
  | .hbm, ⟨39, _⟩ => ⟨S1x128x128, .f32⟩
  | .hbm, ⟨40, _⟩ => ⟨S128x128, .f32⟩
  | .hbm, ⟨41, _⟩ => ⟨S128x128, .f32⟩
  | .hbm, ⟨42, _⟩ => ⟨S262144x128, .f32⟩
  | .hbm, ⟨43, _⟩ => ⟨S1x128, .f32⟩
  | .hbm, ⟨44, _⟩ => ⟨S128, .f32⟩
  | .hbm, ⟨45, _⟩ => ⟨S1x128, .f32⟩
  | .hbm, ⟨46, _⟩ => ⟨S262144x128, .f32⟩
  | .hbm, ⟨47, _⟩ => ⟨S262144x128, .f32⟩
  | .hbm, ⟨48, _⟩ => ⟨S_, .f32⟩
  | .hbm, ⟨49, _⟩ => ⟨S262144x128, .f32⟩
  | .hbm, ⟨50, _⟩ => ⟨S262144x128, .f32⟩
  | .hbm, ⟨51, _⟩ => ⟨S1x128x128, .f32⟩
  | .hbm, ⟨52, _⟩ => ⟨S128x128, .f32⟩
  | .hbm, ⟨53, _⟩ => ⟨S128x128, .f32⟩
  | .hbm, ⟨54, _⟩ => ⟨S262144x128, .f32⟩
  | .hbm, ⟨55, _⟩ => ⟨S1x128, .f32⟩
  | .hbm, ⟨56, _⟩ => ⟨S128, .f32⟩
  | .hbm, ⟨57, _⟩ => ⟨S1x128, .f32⟩
  | .hbm, ⟨58, _⟩ => ⟨S262144x128, .f32⟩
  | .hbm, ⟨59, _⟩ => ⟨S262144x128, .f32⟩
  | .hbm, ⟨60, _⟩ => ⟨S_, .f32⟩
  | .hbm, ⟨61, _⟩ => ⟨S262144x128, .f32⟩
  | .hbm, ⟨62, _⟩ => ⟨S262144x128, .f32⟩
  | .hbm, ⟨63, _⟩ => ⟨S1x128x128, .f32⟩
  | .hbm, ⟨64, _⟩ => ⟨S128x128, .f32⟩
  | .hbm, ⟨65, _⟩ => ⟨S128x128, .f32⟩
  | .hbm, ⟨66, _⟩ => ⟨S262144x128, .f32⟩
  | .hbm, ⟨67, _⟩ => ⟨S1x128, .f32⟩
  | .hbm, ⟨68, _⟩ => ⟨S128, .f32⟩
  | .hbm, ⟨69, _⟩ => ⟨S1x128, .f32⟩
  | .hbm, ⟨70, _⟩ => ⟨S262144x128, .f32⟩
  | .hbm, ⟨71, _⟩ => ⟨S262144x128, .f32⟩
  | .hbm, ⟨72, _⟩ => ⟨S_, .f32⟩
  | .hbm, ⟨73, _⟩ => ⟨S262144x128, .f32⟩
  | .hbm, ⟨74, _⟩ => ⟨S262144x128, .f32⟩
  | .hbm, ⟨75, _⟩ => ⟨S1x128x128, .f32⟩
  | .hbm, ⟨76, _⟩ => ⟨S128x128, .f32⟩
  | .hbm, ⟨77, _⟩ => ⟨S128x128, .f32⟩
  | .hbm, ⟨78, _⟩ => ⟨S262144x128, .f32⟩
  | .hbm, ⟨79, _⟩ => ⟨S1x128, .f32⟩
  | .hbm, ⟨80, _⟩ => ⟨S128, .f32⟩
  | .hbm, ⟨81, _⟩ => ⟨S1x128, .f32⟩
  | .hbm, ⟨82, _⟩ => ⟨S262144x128, .f32⟩
  | .hbm, ⟨83, _⟩ => ⟨S262144x128, .f32⟩
  | .hbm, ⟨84, _⟩ => ⟨S_, .f32⟩
  | .hbm, ⟨85, _⟩ => ⟨S262144x128, .f32⟩
  | .hbm, ⟨86, _⟩ => ⟨S262144x128, .f32⟩
  | .hbm, ⟨87, _⟩ => ⟨S1x128x128, .f32⟩
  | .hbm, ⟨88, _⟩ => ⟨S128x128, .f32⟩
  | .hbm, ⟨89, _⟩ => ⟨S128x128, .f32⟩
  | .hbm, ⟨90, _⟩ => ⟨S262144x128, .f32⟩
  | .hbm, ⟨91, _⟩ => ⟨S1x128, .f32⟩
  | .hbm, ⟨92, _⟩ => ⟨S128, .f32⟩
  | .hbm, ⟨93, _⟩ => ⟨S1x128, .f32⟩
  | .hbm, ⟨94, _⟩ => ⟨S262144x128, .f32⟩
  | .hbm, ⟨95, _⟩ => ⟨S262144x128, .f32⟩
  | .hbm, ⟨96, _⟩ => ⟨S_, .f32⟩
  | .hbm, ⟨97, _⟩ => ⟨S262144x128, .f32⟩
  | .hbm, ⟨98, _⟩ => ⟨S262144x128, .f32⟩
  | .hbm, ⟨99, _⟩ => ⟨S128x3, .f32⟩
  | .hbm, ⟨100, _⟩ => ⟨S262144x3, .f32⟩
  | .hbm, ⟨101, _⟩ => ⟨S1x3, .f32⟩
  | .hbm, ⟨102, _⟩ => ⟨S262144x3, .f32⟩
  | .hbm, ⟨103, _⟩ => ⟨S262144x3, .f32⟩
  | _, _ => ⟨S262144x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_call0_cst : Ref sig .tc := ⟨.hbm, 12, rfl⟩
abbrev main_call0_v0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_call1_cst : Ref sig .tc := ⟨.hbm, 24, rfl⟩
abbrev main_call1_v0 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_call2_cst : Ref sig .tc := ⟨.hbm, 36, rfl⟩
abbrev main_call2_v0 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_call3_cst : Ref sig .tc := ⟨.hbm, 48, rfl⟩
abbrev main_call3_v0 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_call4_cst : Ref sig .tc := ⟨.hbm, 60, rfl⟩
abbrev main_call4_v0 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_call5_cst : Ref sig .tc := ⟨.hbm, 72, rfl⟩
abbrev main_call5_v0 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_call6_cst : Ref sig .tc := ⟨.hbm, 84, rfl⟩
abbrev main_call6_v0 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_call7_cst : Ref sig .tc := ⟨.hbm, 96, rfl⟩
abbrev main_call7_v0 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩
abbrev main_v79 : Ref sig .tc := ⟨.hbm, 102, rfl⟩
abbrev main_v80 : Ref sig .tc := ⟨.hbm, 103, rfl⟩

abbrev nD : Nat := 1
abbrev τ : Topo := Topo.v7x

variable {F : FTy → Type} [FloatOps F]

class Facts₀ : Prop where
  transposes_S128x3_S3x128_1_0 : S128x3.Transposes [1, 0] S3x128
  bcast_S128_S1x128_1 : S128.BroadcastsInDim S1x128 (![1] : Fin 1 → Fin S1x128.rank)
  bcast_S1x128_S262144x128_0_1 : S1x128.BroadcastsInDim S262144x128 (![0, 1] : Fin 2 → Fin S262144x128.rank)
  bcast_S_S262144x128 : S_.BroadcastsInDim S262144x128 (![] : Fin 0 → Fin S262144x128.rank)
  slices_S7x128x128_S1x128x128_0_0_0 : S7x128x128.Slices ![0, 0, 0] S1x128x128
  shapeCasts_S1x128x128_S128x128 : S1x128x128.ShapeCasts S128x128
  transposes_S128x128_S128x128_1_0 : S128x128.Transposes [1, 0] S128x128
  slices_S7x128_S1x128_0_0 : S7x128.Slices ![0, 0] S1x128
  shapeCasts_S1x128_S128 : S1x128.ShapeCasts S128
  slices_S7x128x128_S1x128x128_1_0_0 : S7x128x128.Slices ![1, 0, 0] S1x128x128
  slices_S7x128_S1x128_1_0 : S7x128.Slices ![1, 0] S1x128
  slices_S7x128x128_S1x128x128_2_0_0 : S7x128x128.Slices ![2, 0, 0] S1x128x128
  slices_S7x128_S1x128_2_0 : S7x128.Slices ![2, 0] S1x128
  slices_S7x128x128_S1x128x128_3_0_0 : S7x128x128.Slices ![3, 0, 0] S1x128x128
  slices_S7x128_S1x128_3_0 : S7x128.Slices ![3, 0] S1x128
  slices_S7x128x128_S1x128x128_4_0_0 : S7x128x128.Slices ![4, 0, 0] S1x128x128
  slices_S7x128_S1x128_4_0 : S7x128.Slices ![4, 0] S1x128
  slices_S7x128x128_S1x128x128_5_0_0 : S7x128x128.Slices ![5, 0, 0] S1x128x128
  slices_S7x128_S1x128_5_0 : S7x128.Slices ![5, 0] S1x128
  slices_S7x128x128_S1x128x128_6_0_0 : S7x128x128.Slices ![6, 0, 0] S1x128x128
  slices_S7x128_S1x128_6_0 : S7x128.Slices ![6, 0] S1x128
  transposes_S3x128_S128x3_1_0 : S3x128.Transposes [1, 0] S128x3
  bcast_S3_S1x3_1 : S3.BroadcastsInDim S1x3 (![1] : Fin 1 → Fin S1x3.rank)
  bcast_S1x3_S262144x3_0_1 : S1x3.BroadcastsInDim S262144x3 (![0, 1] : Fin 2 → Fin S262144x3.rank)
  dot_S262144x3_S3x128_S262144x128_1_0_0_1_n_n_wf : DotDims.WF S262144x3 S3x128 S262144x128 [1] [0] [0] [1] [] []
  dot_S262144x128_S128x128_S262144x128_1_0_0_1_n_n_wf : DotDims.WF S262144x128 S128x128 S262144x128 [1] [0] [0] [1] [] []
  dot_S262144x128_S128x3_S262144x3_1_0_0_1_n_n_wf : DotDims.WF S262144x128 S128x3 S262144x3 [1] [0] [0] [1] [] []

variable [Facts₀]

def dot_S262144x3_S3x128_S262144x128_1_0_0_1_n_n : DotDims S262144x3 S3x128 S262144x128 where
  lhsContracting := [1]
  rhsContracting := [0]
  lhsNonContracting := [0]
  rhsNonContracting := [1]
  lhsBatch := []
  rhsBatch := []
  wf := dot_S262144x3_S3x128_S262144x128_1_0_0_1_n_n_wf
def dot_S262144x128_S128x128_S262144x128_1_0_0_1_n_n : DotDims S262144x128 S128x128 S262144x128 where
  lhsContracting := [1]
  rhsContracting := [0]
  lhsNonContracting := [0]
  rhsNonContracting := [1]
  lhsBatch := []
  rhsBatch := []
  wf := dot_S262144x128_S128x128_S262144x128_1_0_0_1_n_n_wf
def dot_S262144x128_S128x3_S262144x3_1_0_0_1_n_n : DotDims S262144x128 S128x3 S262144x3 where
  lhsContracting := [1]
  rhsContracting := [0]
  lhsNonContracting := [0]
  rhsNonContracting := [1]
  lhsBatch := []
  rhsBatch := []
  wf := dot_S262144x128_S128x3_S262144x3_1_0_0_1_n_n_wf

class Facts : Prop extends Facts₀ where

variable [Facts]
-- ==== Proof.MlpSpec.lean ====
/-
  The specification: an eight-layer perceptron applied to one row.

  A dense layer sends a vector `h` of `K` extended reals to the vector whose entry `j` is
  `(∑ k, h k * W j k) + b j` (the row of `W` numbered `j` against `h`, plus the bias), a hidden layer
  follows it by `max · 0`, and the network is one input layer 3 → 128, seven hidden layers 128 → 128 and
  a last dense layer 128 → 3 with no `max`. The two laws below say that the other spellings of one
  dense entry met in this certificate — the weight written on the left of each product, and the three
  products of the input layer added one at a time to the bias — are the same extended real: only the
  commutativity of `*` and the commutativity and associativity of `+` are used, which hold at the
  infinities too, so nothing here asks the entries to be finite.
-/
import Idealize.ShloMosaic.Lib.ValueIdx

noncomputable section

open scoped BigOperators

namespace Cert.Mlp

open Idealize.ShloMosaic Idealize.ShloMosaic.ValueIdx

/-- Entry `j` of a dense layer: row `j` of the weights against the input, plus the bias. -/
def dense {K N : Nat} (W : Fin N → Fin K → EReal) (b : Fin N → EReal) (h : Fin K → EReal) : Fin N → EReal :=
  fun j => (∑ k, h k * W j k) + b j

/-- A dense layer followed by the positive part. -/
def reluDense {K N : Nat} (W : Fin N → Fin K → EReal) (b : Fin N → EReal) (h : Fin K → EReal) : Fin N → EReal :=
  fun j => max (dense W b h j) 0

/-- The network on one row `x` of three numbers. -/
def mlp (W0 : Fin 128 → Fin 3 → EReal) (b0 : Fin 128 → EReal) (Wh : Fin 7 → Fin 128 → Fin 128 → EReal)
    (bh : Fin 7 → Fin 128 → EReal) (Wout : Fin 3 → Fin 128 → EReal) (bout : Fin 3 → EReal) (x : Fin 3 → EReal) :
    Fin 3 → EReal :=
  dense Wout bout (reluDense (Wh 6) (bh 6) (reluDense (Wh 5) (bh 5) (reluDense (Wh 4) (bh 4)
    (reluDense (Wh 3) (bh 3) (reluDense (Wh 2) (bh 2) (reluDense (Wh 1) (bh 1) (reluDense (Wh 0) (bh 0)
      (reluDense W0 b0 x))))))))

/-- The weight written on the left of each product. -/
theorem dense_left {K N : Nat} (W : Fin N → Fin K → EReal) (b : Fin N → EReal) (h : Fin K → EReal) (j : Fin N) :
    (∑ k, W j k * h k) + b j = dense W b h j := by
  unfold dense
  exact congrArg (· + b j) (Finset.sum_congr rfl fun k _ => mul_comm _ _)

/-- Three products added one at a time to the bias. -/
theorem dense_three {N : Nat} (W : Fin N → Fin 3 → EReal) (b : Fin N → EReal) (x : Fin 3 → EReal) (j : Fin N) :
    ((b j + W j 0 * x 0) + W j 1 * x 1) + W j 2 * x 2 = dense W b x j := by
  unfold dense
  rw [Fin.sum_univ_three, mul_comm (x 0), mul_comm (x 1), mul_comm (x 2)]
  ac_rfl

/-- The same when the input is known entry by entry. -/
theorem dense_left_of {K N : Nat} (W : Fin N → Fin K → EReal) (b : Fin N → EReal) (g h : Fin K → EReal)
    (hg : ∀ k, g k = h k) (j : Fin N) : (∑ k, W j k * g k) + b j = dense W b h j := by
  rw [show g = h from funext hg]
  exact dense_left W b h j

/-- A hidden layer with the weight on the left of each product, its input known entry by entry. -/
theorem reluDense_left_of {K N : Nat} (W : Fin N → Fin K → EReal) (b : Fin N → EReal) (g h : Fin K → EReal)
    (hg : ∀ k, g k = h k) (j : Fin N) : max ((∑ k, W j k * g k) + b j) 0 = reluDense W b h j :=
  congrArg (max · 0) (dense_left_of W b g h hg j)

/-- The input layer's three products added one at a time to the bias, then the positive part. -/
theorem reluDense_three {N : Nat} (W : Fin N → Fin 3 → EReal) (b : Fin N → EReal) (x : Fin 3 → EReal) (j : Fin N) :
    max (((b j + W j 0 * x 0) + W j 1 * x 1) + W j 2 * x 2) 0 = reluDense W b x j :=
  congrArg (max · 0) (dense_three W b x j)

/-- A matrix, a vector and a stack of matrices read as functions of their coordinates. -/
abbrev mat {a b : Nat} (X : (⟨2, ![a, b]⟩ : Shape).Idx → EReal) : Fin a → Fin b → EReal := fun i j => X (ix2 i j)
abbrev vec {a : Nat} (X : (⟨1, ![a]⟩ : Shape).Idx → EReal) : Fin a → EReal := fun i => X (ix1 i)
abbrev ten {a b c : Nat} (X : (⟨3, ![a, b, c]⟩ : Shape).Idx → EReal) : Fin a → Fin b → Fin c → EReal :=
  fun l i j => X (ix3 l i j)

/-- The network applied to row `n` of the input matrix, entry `j`: what both programs compute at `(n, j)`. -/
def rowOut (x : (⟨2, ![262144, 3]⟩ : Shape).Idx → EReal) (W0 : (⟨2, ![128, 3]⟩ : Shape).Idx → EReal)
    (b0 : (⟨1, ![128]⟩ : Shape).Idx → EReal) (Wh : (⟨3, ![7, 128, 128]⟩ : Shape).Idx → EReal)
    (bh : (⟨2, ![7, 128]⟩ : Shape).Idx → EReal) (Wout : (⟨2, ![3, 128]⟩ : Shape).Idx → EReal)
    (bout : (⟨1, ![3]⟩ : Shape).Idx → EReal) (n : Fin 262144) (j : Fin 3) : EReal :=
  mlp (mat W0) (vec b0) (ten Wh) (mat bh) (mat Wout) (vec bout) (fun k => x (ix2 n k)) j

end Cert.Mlp

end
-- ==== Proof.RefRows.lean ====
/-
  The reference at an index, layer by layer.

  The reference computes each layer on the whole [262144, ·] matrix: a product with the transposed weights,
  the bias laid as a row and broadcast down the rows, and for the hidden layers the maximum with a
  broadcast zero. Read at entry `(n, j)` each stage is the dense layer of the specification applied to
  row `n` of the stage before it: the product's left operand is read at `(n, k)`, the transposed (and, for a
  hidden layer, sliced and reshaped) weights at `(k, j)` are the weight array's entry `(j, k)` of that
  layer, and the broadcast bias at `(n, j)` is the bias entry `j`. Chaining the nine layers gives the network of
  the specification on row `n` of the input.
-/
import proofs.«170339_j85461259255883_2_alg».proof.Proof.Gen.ReferenceIdeal.Read
import proofs.«170339_j85461259255883_2_alg».proof.Proof.MlpSpec

noncomputable section

open scoped BigOperators

namespace Cert.Mlp.Ref

open Cert.ReferenceIdeal Cert.ReferenceIdeal.Gen Cert.ReferenceIdeal.Read Idealize.ShloMosaic Idealize.ShloMosaic.ValueIdx Cert.Mlp

variable (x0 : (⟨S262144x3, .f32⟩ : BufTy).Contents (Elt Ideal)) (x1 : (⟨S128x3, .f32⟩ : BufTy).Contents (Elt Ideal))
  (x2 : (⟨S128, .f32⟩ : BufTy).Contents (Elt Ideal)) (x3 : (⟨S7x128x128, .f32⟩ : BufTy).Contents (Elt Ideal))
  (x4 : (⟨S7x128, .f32⟩ : BufTy).Contents (Elt Ideal)) (x5 : (⟨S3x128, .f32⟩ : BufTy).Contents (Elt Ideal))
  (x6 : (⟨S3, .f32⟩ : BufTy).Contents (Elt Ideal))

/-- The input layer at `(n, j)`: the positive part of row `j` of the first weights against row `n` of the input,
    plus the first bias. -/
theorem layer_in (n : Fin 262144) (j : Fin 128) :
    val_main_v5 (F := Ideal) x0 x1 x2 (ix2 n j) = reluDense (mat x1) (vec x2) (fun k => x0 (ix2 n k)) j := by
  rw [val_main_v5_apply, val_main_v4_apply, val_main_v1_apply, val_main_v3_apply, val_main_v2_apply,
    val_main_call0_v0_apply, val_main_call0_cst_apply]
  simp only [val_main_v0_apply]
  have e1 : ∀ k, lidx_main_v1 (ix2 n j) k = ix2 n k := fun k => funext fun a => Fin.ext (by
    match a with
    | ⟨0, _⟩ => rfl
    | ⟨1, _⟩ => rfl)
  have e2 : ∀ k, idx_main_v0 (ridx_main_v1 (ix2 n j) k) = ix2 j k := fun k => funext fun a => Fin.ext (by
    match a with
    | ⟨0, _⟩ => rfl
    | ⟨1, _⟩ => rfl)
  have e3 : idx_main_v2 (idx_main_v3 (ix2 n j)) = ix1 j := funext fun a => Fin.ext (by
    match a with
    | ⟨0, _⟩ => rfl)
  simp only [e1, e2, e3]
  rw [Ideal.maximumf_def, Ideal.addf_def, Ideal.ofBits_def, Ideal.ofBits_zero_f32]
  rfl

/-- Hidden layer 0 at `(n, j)`: the positive part of row `j` of its weights against row `n` of the stage before,
    plus its bias. -/
theorem layer_h0 (n : Fin 262144) (j : Fin 128) :
    val_main_v15 (F := Ideal) x0 x1 x2 x3 x4 (ix2 n j)
      = reluDense (ten x3 0) (mat x4 0) (fun k => val_main_v5 (F := Ideal) x0 x1 x2 (ix2 n k)) j := by
  rw [val_main_v15_apply, val_main_v14_apply, val_main_v9_apply, val_main_v13_apply, val_main_v12_apply, val_main_v11_apply, val_main_v10_apply,
    val_main_call1_v0_apply, val_main_call1_cst_apply]
  simp only [val_main_v8_apply, val_main_v7_apply, val_main_v6_apply]
  have e1 : ∀ k, lidx_main_v9 (ix2 n j) k = ix2 n k := fun k => funext fun a => Fin.ext (by
    match a with
    | ⟨0, _⟩ => rfl
    | ⟨1, _⟩ => rfl)
  have e2 : ∀ k : Fin 128, idx_main_v6 (idx_main_v7 (idx_main_v8 (ridx_main_v9 (ix2 n j) k))) = ix3 0 j k :=
    fun k => funext fun a => Fin.ext (by
      have hj : j.val < 128 := j.isLt
      have hk : k.val < 128 := k.isLt
      match a with
      | ⟨0, _⟩ => rfl
      | ⟨1, _⟩ => show (j.val * 128 + k.val) / 128 % 128 = j.val; omega
      | ⟨2, _⟩ => show (j.val * 128 + k.val) % 128 = k.val; omega)
  have e3 : idx_main_v10 (idx_main_v11 (idx_main_v12 (idx_main_v13 (ix2 n j)))) = ix2 0 j :=
    funext fun a => Fin.ext (by
      have hj : j.val < 128 := j.isLt
      match a with
      | ⟨0, _⟩ => rfl
      | ⟨1, _⟩ => show j.val % 128 = j.val; omega)
  simp only [e1, e2, e3]
  rw [Ideal.maximumf_def, Ideal.addf_def, Ideal.ofBits_def, Ideal.ofBits_zero_f32]
  rfl

/-- Hidden layer 1 at `(n, j)`: the positive part of row `j` of its weights against row `n` of the stage before,
    plus its bias. -/
theorem layer_h1 (n : Fin 262144) (j : Fin 128) :
    val_main_v25 (F := Ideal) x0 x1 x2 x3 x4 (ix2 n j)
      = reluDense (ten x3 1) (mat x4 1) (fun k => val_main_v15 (F := Ideal) x0 x1 x2 x3 x4 (ix2 n k)) j := by
  rw [val_main_v25_apply, val_main_v24_apply, val_main_v19_apply, val_main_v23_apply, val_main_v22_apply, val_main_v21_apply, val_main_v20_apply,
    val_main_call2_v0_apply, val_main_call2_cst_apply]
  simp only [val_main_v18_apply, val_main_v17_apply, val_main_v16_apply]
  have e1 : ∀ k, lidx_main_v19 (ix2 n j) k = ix2 n k := fun k => funext fun a => Fin.ext (by
    match a with
    | ⟨0, _⟩ => rfl
    | ⟨1, _⟩ => rfl)
  have e2 : ∀ k : Fin 128, idx_main_v16 (idx_main_v17 (idx_main_v18 (ridx_main_v19 (ix2 n j) k))) = ix3 1 j k :=
    fun k => funext fun a => Fin.ext (by
      have hj : j.val < 128 := j.isLt
      have hk : k.val < 128 := k.isLt
      match a with
      | ⟨0, _⟩ => rfl
      | ⟨1, _⟩ => show (j.val * 128 + k.val) / 128 % 128 = j.val; omega
      | ⟨2, _⟩ => show (j.val * 128 + k.val) % 128 = k.val; omega)
  have e3 : idx_main_v20 (idx_main_v21 (idx_main_v22 (idx_main_v23 (ix2 n j)))) = ix2 1 j :=
    funext fun a => Fin.ext (by
      have hj : j.val < 128 := j.isLt
      match a with
      | ⟨0, _⟩ => rfl
      | ⟨1, _⟩ => show j.val % 128 = j.val; omega)
  simp only [e1, e2, e3]
  rw [Ideal.maximumf_def, Ideal.addf_def, Ideal.ofBits_def, Ideal.ofBits_zero_f32]
  rfl

/-- Hidden layer 2 at `(n, j)`: the positive part of row `j` of its weights against row `n` of the stage before,
    plus its bias. -/
theorem layer_h2 (n : Fin 262144) (j : Fin 128) :
    val_main_v35 (F := Ideal) x0 x1 x2 x3 x4 (ix2 n j)
      = reluDense (ten x3 2) (mat x4 2) (fun k => val_main_v25 (F := Ideal) x0 x1 x2 x3 x4 (ix2 n k)) j := by
  rw [val_main_v35_apply, val_main_v34_apply, val_main_v29_apply, val_main_v33_apply, val_main_v32_apply, val_main_v31_apply, val_main_v30_apply,
    val_main_call3_v0_apply, val_main_call3_cst_apply]
  simp only [val_main_v28_apply, val_main_v27_apply, val_main_v26_apply]
  have e1 : ∀ k, lidx_main_v29 (ix2 n j) k = ix2 n k := fun k => funext fun a => Fin.ext (by
    match a with
    | ⟨0, _⟩ => rfl
    | ⟨1, _⟩ => rfl)
  have e2 : ∀ k : Fin 128, idx_main_v26 (idx_main_v27 (idx_main_v28 (ridx_main_v29 (ix2 n j) k))) = ix3 2 j k :=
    fun k => funext fun a => Fin.ext (by
      have hj : j.val < 128 := j.isLt
      have hk : k.val < 128 := k.isLt
      match a with
      | ⟨0, _⟩ => rfl
      | ⟨1, _⟩ => show (j.val * 128 + k.val) / 128 % 128 = j.val; omega
      | ⟨2, _⟩ => show (j.val * 128 + k.val) % 128 = k.val; omega)
  have e3 : idx_main_v30 (idx_main_v31 (idx_main_v32 (idx_main_v33 (ix2 n j)))) = ix2 2 j :=
    funext fun a => Fin.ext (by
      have hj : j.val < 128 := j.isLt
      match a with
      | ⟨0, _⟩ => rfl
      | ⟨1, _⟩ => show j.val % 128 = j.val; omega)
  simp only [e1, e2, e3]
  rw [Ideal.maximumf_def, Ideal.addf_def, Ideal.ofBits_def, Ideal.ofBits_zero_f32]
  rfl

/-- Hidden layer 3 at `(n, j)`: the positive part of row `j` of its weights against row `n` of the stage before,
    plus its bias. -/
theorem layer_h3 (n : Fin 262144) (j : Fin 128) :
    val_main_v45 (F := Ideal) x0 x1 x2 x3 x4 (ix2 n j)
      = reluDense (ten x3 3) (mat x4 3) (fun k => val_main_v35 (F := Ideal) x0 x1 x2 x3 x4 (ix2 n k)) j := by
  rw [val_main_v45_apply, val_main_v44_apply, val_main_v39_apply, val_main_v43_apply, val_main_v42_apply, val_main_v41_apply, val_main_v40_apply,
    val_main_call4_v0_apply, val_main_call4_cst_apply]
  simp only [val_main_v38_apply, val_main_v37_apply, val_main_v36_apply]
  have e1 : ∀ k, lidx_main_v39 (ix2 n j) k = ix2 n k := fun k => funext fun a => Fin.ext (by
    match a with
    | ⟨0, _⟩ => rfl
    | ⟨1, _⟩ => rfl)
  have e2 : ∀ k : Fin 128, idx_main_v36 (idx_main_v37 (idx_main_v38 (ridx_main_v39 (ix2 n j) k))) = ix3 3 j k :=
    fun k => funext fun a => Fin.ext (by
      have hj : j.val < 128 := j.isLt
      have hk : k.val < 128 := k.isLt
      match a with
      | ⟨0, _⟩ => rfl
      | ⟨1, _⟩ => show (j.val * 128 + k.val) / 128 % 128 = j.val; omega
      | ⟨2, _⟩ => show (j.val * 128 + k.val) % 128 = k.val; omega)
  have e3 : idx_main_v40 (idx_main_v41 (idx_main_v42 (idx_main_v43 (ix2 n j)))) = ix2 3 j :=
    funext fun a => Fin.ext (by
      have hj : j.val < 128 := j.isLt
      match a with
      | ⟨0, _⟩ => rfl
      | ⟨1, _⟩ => show j.val % 128 = j.val; omega)
  simp only [e1, e2, e3]
  rw [Ideal.maximumf_def, Ideal.addf_def, Ideal.ofBits_def, Ideal.ofBits_zero_f32]
  rfl

/-- Hidden layer 4 at `(n, j)`: the positive part of row `j` of its weights against row `n` of the stage before,
    plus its bias. -/
theorem layer_h4 (n : Fin 262144) (j : Fin 128) :
    val_main_v55 (F := Ideal) x0 x1 x2 x3 x4 (ix2 n j)
      = reluDense (ten x3 4) (mat x4 4) (fun k => val_main_v45 (F := Ideal) x0 x1 x2 x3 x4 (ix2 n k)) j := by
  rw [val_main_v55_apply, val_main_v54_apply, val_main_v49_apply, val_main_v53_apply, val_main_v52_apply, val_main_v51_apply, val_main_v50_apply,
    val_main_call5_v0_apply, val_main_call5_cst_apply]
  simp only [val_main_v48_apply, val_main_v47_apply, val_main_v46_apply]
  have e1 : ∀ k, lidx_main_v49 (ix2 n j) k = ix2 n k := fun k => funext fun a => Fin.ext (by
    match a with
    | ⟨0, _⟩ => rfl
    | ⟨1, _⟩ => rfl)
  have e2 : ∀ k : Fin 128, idx_main_v46 (idx_main_v47 (idx_main_v48 (ridx_main_v49 (ix2 n j) k))) = ix3 4 j k :=
    fun k => funext fun a => Fin.ext (by
      have hj : j.val < 128 := j.isLt
      have hk : k.val < 128 := k.isLt
      match a with
      | ⟨0, _⟩ => rfl
      | ⟨1, _⟩ => show (j.val * 128 + k.val) / 128 % 128 = j.val; omega
      | ⟨2, _⟩ => show (j.val * 128 + k.val) % 128 = k.val; omega)
  have e3 : idx_main_v50 (idx_main_v51 (idx_main_v52 (idx_main_v53 (ix2 n j)))) = ix2 4 j :=
    funext fun a => Fin.ext (by
      have hj : j.val < 128 := j.isLt
      match a with
      | ⟨0, _⟩ => rfl
      | ⟨1, _⟩ => show j.val % 128 = j.val; omega)
  simp only [e1, e2, e3]
  rw [Ideal.maximumf_def, Ideal.addf_def, Ideal.ofBits_def, Ideal.ofBits_zero_f32]
  rfl

/-- Hidden layer 5 at `(n, j)`: the positive part of row `j` of its weights against row `n` of the stage before,
    plus its bias. -/
theorem layer_h5 (n : Fin 262144) (j : Fin 128) :
    val_main_v65 (F := Ideal) x0 x1 x2 x3 x4 (ix2 n j)
      = reluDense (ten x3 5) (mat x4 5) (fun k => val_main_v55 (F := Ideal) x0 x1 x2 x3 x4 (ix2 n k)) j := by
  rw [val_main_v65_apply, val_main_v64_apply, val_main_v59_apply, val_main_v63_apply, val_main_v62_apply, val_main_v61_apply, val_main_v60_apply,
    val_main_call6_v0_apply, val_main_call6_cst_apply]
  simp only [val_main_v58_apply, val_main_v57_apply, val_main_v56_apply]
  have e1 : ∀ k, lidx_main_v59 (ix2 n j) k = ix2 n k := fun k => funext fun a => Fin.ext (by
    match a with
    | ⟨0, _⟩ => rfl
    | ⟨1, _⟩ => rfl)
  have e2 : ∀ k : Fin 128, idx_main_v56 (idx_main_v57 (idx_main_v58 (ridx_main_v59 (ix2 n j) k))) = ix3 5 j k :=
    fun k => funext fun a => Fin.ext (by
      have hj : j.val < 128 := j.isLt
      have hk : k.val < 128 := k.isLt
      match a with
      | ⟨0, _⟩ => rfl
      | ⟨1, _⟩ => show (j.val * 128 + k.val) / 128 % 128 = j.val; omega
      | ⟨2, _⟩ => show (j.val * 128 + k.val) % 128 = k.val; omega)
  have e3 : idx_main_v60 (idx_main_v61 (idx_main_v62 (idx_main_v63 (ix2 n j)))) = ix2 5 j :=
    funext fun a => Fin.ext (by
      have hj : j.val < 128 := j.isLt
      match a with
      | ⟨0, _⟩ => rfl
      | ⟨1, _⟩ => show j.val % 128 = j.val; omega)
  simp only [e1, e2, e3]
  rw [Ideal.maximumf_def, Ideal.addf_def, Ideal.ofBits_def, Ideal.ofBits_zero_f32]
  rfl

/-- Hidden layer 6 at `(n, j)`: the positive part of row `j` of its weights against row `n` of the stage before,
    plus its bias. -/
theorem layer_h6 (n : Fin 262144) (j : Fin 128) :
    val_main_v75 (F := Ideal) x0 x1 x2 x3 x4 (ix2 n j)
      = reluDense (ten x3 6) (mat x4 6) (fun k => val_main_v65 (F := Ideal) x0 x1 x2 x3 x4 (ix2 n k)) j := by
  rw [val_main_v75_apply, val_main_v74_apply, val_main_v69_apply, val_main_v73_apply, val_main_v72_apply, val_main_v71_apply, val_main_v70_apply,
    val_main_call7_v0_apply, val_main_call7_cst_apply]
  simp only [val_main_v68_apply, val_main_v67_apply, val_main_v66_apply]
  have e1 : ∀ k, lidx_main_v69 (ix2 n j) k = ix2 n k := fun k => funext fun a => Fin.ext (by
    match a with
    | ⟨0, _⟩ => rfl
    | ⟨1, _⟩ => rfl)
  have e2 : ∀ k : Fin 128, idx_main_v66 (idx_main_v67 (idx_main_v68 (ridx_main_v69 (ix2 n j) k))) = ix3 6 j k :=
    fun k => funext fun a => Fin.ext (by
      have hj : j.val < 128 := j.isLt
      have hk : k.val < 128 := k.isLt
      match a with
      | ⟨0, _⟩ => rfl
      | ⟨1, _⟩ => show (j.val * 128 + k.val) / 128 % 128 = j.val; omega
      | ⟨2, _⟩ => show (j.val * 128 + k.val) % 128 = k.val; omega)
  have e3 : idx_main_v70 (idx_main_v71 (idx_main_v72 (idx_main_v73 (ix2 n j)))) = ix2 6 j :=
    funext fun a => Fin.ext (by
      have hj : j.val < 128 := j.isLt
      match a with
      | ⟨0, _⟩ => rfl
      | ⟨1, _⟩ => show j.val % 128 = j.val; omega)
  simp only [e1, e2, e3]
  rw [Ideal.maximumf_def, Ideal.addf_def, Ideal.ofBits_def, Ideal.ofBits_zero_f32]
  rfl

/-- The last layer at `(n, j)`: row `j` of the output weights against row `n` of the last hidden stage, plus the
    output bias (no positive part). -/
theorem layer_out (n : Fin 262144) (j : Fin 3) :
    val_main_v80 (F := Ideal) x0 x1 x2 x3 x4 x5 x6 (ix2 n j)
      = dense (mat x5) (vec x6) (fun k => val_main_v75 (F := Ideal) x0 x1 x2 x3 x4 (ix2 n k)) j := by
  rw [val_main_v80_apply, val_main_v77_apply, val_main_v79_apply, val_main_v78_apply]
  simp only [val_main_v76_apply]
  have e1 : ∀ k, lidx_main_v77 (ix2 n j) k = ix2 n k := fun k => funext fun a => Fin.ext (by
    match a with
    | ⟨0, _⟩ => rfl
    | ⟨1, _⟩ => rfl)
  have e2 : ∀ k, idx_main_v76 (ridx_main_v77 (ix2 n j) k) = ix2 j k := fun k => funext fun a => Fin.ext (by
    match a with
    | ⟨0, _⟩ => rfl
    | ⟨1, _⟩ => rfl)
  have e3 : idx_main_v78 (idx_main_v79 (ix2 n j)) = ix1 j := funext fun a => Fin.ext (by
    match a with
    | ⟨0, _⟩ => rfl)
  simp only [e1, e2, e3]
  rw [Ideal.addf_def]
  rfl

/-- The reference's result at `(n, j)` is the network of the specification on row `n` of the input, entry `j`. -/
theorem result_apply (n : Fin 262144) (j : Fin 3) :
    val_main_v80 (F := Ideal) x0 x1 x2 x3 x4 x5 x6 (ix2 n j) = rowOut x0 x1 x2 x3 x4 x5 x6 n j := by
  rw [layer_out]
  unfold rowOut mlp
  simp only [layer_h6, layer_h5, layer_h4, layer_h3, layer_h2, layer_h1, layer_h0, layer_in]

/-- The same as one equation between arrays. -/
theorem result_eq :
    val_main_v80 (F := Ideal) x0 x1 x2 x3 x4 x5 x6 = fun i => rowOut x0 x1 x2 x3 x4 x5 x6 (i 0) (i 1) := by
  funext i
  obtain ⟨n, j, rfl⟩ : ∃ (n : Fin 262144) (j : Fin 3), i = ix2 n j := ⟨i 0, i 1, eq_ix2 i⟩
  exact result_apply x0 x1 x2 x3 x4 x5 x6 n j

end Cert.Mlp.Ref

end
-- ==== Proof.LibPlainMatmul.lean ====
/-
  A plain matrix product read at one entry, over the extended reals.

  For the dimension numbers of an `M × K` by `K × N` product (`DotDims.plain M K N`: the left operand
  contracted on its second axis, the right one on its first, no batch axis) the entry `(p, q)` of the
  product is `∑ k, lhs (p, k) * rhs (k, q)`: for a kernel's matrix-unit product accumulated into the zero
  splat, and for the host's `dot_general`. The contraction index of such a product has one coordinate, and
  the operands' indices at output `(p, q)` and contraction coordinate `k` are `(p, k)` and `(k, q)`.
-/
import Idealize.ShloMosaic.Lib.ValueIdx
import Idealize.ShloMosaic.PureOps.Ideal.Laws

noncomputable section

open scoped BigOperators

namespace Cert.PlainMatmul

open Idealize.ShloMosaic Idealize.ShloMosaic.ValueIdx

variable {M K N : Nat}

/-- The contraction of a plain product runs over one axis … -/
theorem contr_rank : (DotDims.plain M K N).contr.rank = 1 := rfl

/-- … of extent `K`. -/
theorem contr_size : (DotDims.plain M K N).contr.size ⟨0, Nat.one_pos⟩ = K := rfl

/-- The contraction index whose one coordinate is `k`. -/
abbrev kidx (k : Fin K) : (DotDims.plain M K N).contr.Idx :=
  (contrEquiv1 (DotDims.plain M K N) K contr_rank contr_size).symm k

/-- At output `(p, q)` and contraction coordinate `k` the left operand is read at `(p, k)`. -/
theorem lhsIdx_eq (p : Fin M) (q : Fin N) (k : Fin K) :
    (DotDims.plain M K N).lhsIdx (ix2 p q) (kidx k) = ix2 p k := by
  funext a
  refine Fin.ext ?_
  match a with
  | ⟨0, h0⟩ =>
    unfold DotDims.lhsIdx
    rw [dif_neg (show ¬(⟨0, h0⟩ : Fin (⟨2, ![M, K]⟩ : Shape).rank) ∈ (DotDims.plain M K N).lhsBatch from List.not_mem_nil),
      dif_pos (show (⟨0, h0⟩ : Fin (⟨2, ![M, K]⟩ : Shape).rank) ∈ (DotDims.plain M K N).lhsNonContracting from
        List.mem_singleton.mpr rfl)]
    rfl
  | ⟨1, _⟩ =>
    exact ((DotDims.plain M K N).lhsIdx_val_of_single (cl := 1) rfl (ix2 p q) (kidx k)).trans
      (contrEquiv1_symm_val (DotDims.plain M K N) K contr_rank contr_size k)

/-- At output `(p, q)` and contraction coordinate `k` the right operand is read at `(k, q)`. -/
theorem rhsIdx_eq (p : Fin M) (q : Fin N) (k : Fin K) :
    (DotDims.plain M K N).rhsIdx (ix2 p q) (kidx k) = ix2 k q := by
  funext a
  refine Fin.ext ?_
  match a with
  | ⟨0, _⟩ =>
    exact ((DotDims.plain M K N).rhsIdx_val_of_single (cr := 0) rfl (ix2 p q) (kidx k)).trans
      (contrEquiv1_symm_val (DotDims.plain M K N) K contr_rank contr_size k)
  | ⟨1, h1⟩ =>
    unfold DotDims.rhsIdx
    rw [dif_neg (show ¬(⟨1, h1⟩ : Fin (⟨2, ![K, N]⟩ : Shape).rank) ∈ (DotDims.plain M K N).rhsBatch from List.not_mem_nil),
      dif_pos (show (⟨1, h1⟩ : Fin (⟨2, ![K, N]⟩ : Shape).rank) ∈ (DotDims.plain M K N).rhsNonContracting from
        List.mem_singleton.mpr rfl)]
    rfl

/-- The sum over the contraction index of a plain product is the sum over its one coordinate. -/
theorem sum_contr (f : (⟨2, ![M, K]⟩ : Shape).Idx → (⟨2, ![K, N]⟩ : Shape).Idx → EReal) (p : Fin M) (q : Fin N) :
    ∑ κ : (DotDims.plain M K N).contr.Idx, f ((DotDims.plain M K N).lhsIdx (ix2 p q) κ) ((DotDims.plain M K N).rhsIdx (ix2 p q) κ)
      = ∑ k : Fin K, f (ix2 p k) (ix2 k q) := by
  rw [← Equiv.sum_comp (contrEquiv1 (DotDims.plain M K N) K contr_rank contr_size).symm]
  refine Finset.sum_congr rfl fun k _ => ?_
  rw [lhsIdx_eq p q k, rhsIdx_eq p q k]

/-- A KERNEL'S PRODUCT into the zero accumulator, at entry `(p, q)`: the sum over `k` of `lhs (p, k) * rhs (k, q)`,
    whatever the operands' formats (a change of format is the identity on the extended reals). -/
theorem matmul_zero_apply {φ₁ φ₂ : FTy} (prec : Option ContractPrecision)
    (lhs : FVec Ideal ⟨2, ![M, K]⟩ φ₁) (rhs : FVec Ideal ⟨2, ![K, N]⟩ φ₂) (p : Fin M) (q : Fin N) :
    matmul (DotDims.plain M K N) prec lhs rhs (constant (F := Ideal) ⟨2, ![M, N]⟩ .f32 0x00000000#32) (ix2 p q)
      = ∑ k : Fin K, lhs (ix2 p k) * rhs (ix2 k q) := by
  show FloatOps.matmul (DotDims.plain M K N) prec lhs rhs (constant (F := Ideal) ⟨2, ![M, N]⟩ .f32 0x00000000#32) (ix2 p q) = _
  rw [Ideal.matmul_constant_zero_apply]
  exact sum_contr (fun a b => lhs a * rhs b) p q

/-- THE HOST'S `dot_general` with the same dimension numbers, at entry `(p, q)`: the same sum. -/
theorem dotGeneral_apply {φ₁ φ₂ : FTy} (prec : Option ContractPrecision)
    (lhs : FVec Ideal ⟨2, ![M, K]⟩ φ₁) (rhs : FVec Ideal ⟨2, ![K, N]⟩ φ₂) (p : Fin M) (q : Fin N) :
    Host.dotGeneral (DotDims.plain M K N) prec lhs rhs (ix2 p q) = ∑ k : Fin K, lhs (ix2 p k) * rhs (ix2 k q) := by
  show FloatOps.dotGeneral (DotDims.plain M K N) prec .single lhs rhs (ix2 p q) = _
  rw [Ideal.dotGeneral_apply]
  exact sum_contr (fun a b => lhs a * rhs b) p q

end Cert.PlainMatmul

end
-- ==== Proof.LibColLayout.lean ====
/-
  A column vector and its broadcast along the lanes, read at an entry.

  A vector of `a` numbers viewed as a column `[a, 1]` has at `(i, 0)` the vector's entry `i`, and a column
  `[a, 1]` broadcast to a matrix `[a, b]` has at `(i, j)` the column's entry `(i, 0)`, whatever the lane
  `j`: what a bias kept "channels on sublanes" meets before it is added to a `[channels, rows]` block.
  Beside them, a load through a unit-stride rectangle that takes one slab `[1, a, b]` of a stack `[g, a, b]`
  at offset `(l, 0, 0)`, and one row `[1, a]` of a table `[g, a]` at offset `(l, 0)`, read at an entry.
-/
import Idealize.ShloMosaic.Lib.ValueIdx
import Idealize.ShloMosaic.Lib.Pipeline.Value
import Idealize.ShloMosaic.Lib.ValueLayout

noncomputable section

namespace Cert.ColLayout

open Idealize.ShloMosaic Idealize.ShloMosaic.ValueIdx

variable {α : Type}

/-- An `[a]` vector cast to a column `[a, 1]` reads, at `(i, u)`, the vector at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(i, j)`, the column at `(i, 0)`. -/
theorem broadcastTo_a1_ab_apply {a b : ℕ} (v : (⟨2, ![a, 1]⟩ : Shape).Idx → α) (h : (⟨2, ![a, 1]⟩ : Shape).Broadcasts ⟨2, ![a, b]⟩)
    (i : Fin a) (j : Fin b) : broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

/-- A load of the slab at offset `(l, 0, 0)` of a stack `[g, a, b]` reads, at `(0, i, j)`, the stack at `(l, i, j)`. -/
theorem ld_slab_apply {Val : EltTy → Type} {e : EltTy} {g a b : ℕ} (X : (⟨3, ![g, a, b]⟩ : Shape).Idx → Val e) (l : Fin g)
    (inb : ∀ ax, (![l.val, 0, 0] : Fin 3 → ℕ) ax + (![1, a, b] : Fin 3 → ℕ) ax ≤ (⟨3, ![g, a, b]⟩ : Shape).size ax)
    (i : Fin a) (j : Fin b) :
    View.ld X (Rect.unit (s := ⟨3, ![g, a, b]⟩) ![l.val, 0, 0] ![1, a, b] inb) (ix3 (0 : Fin 1) i j) = X (ix3 l i j) := by
  refine congrArg X (funext fun ax => Fin.ext ?_)
  match ax with
  | ⟨0, _⟩ => show l.val + 1 * 0 = l.val; omega
  | ⟨1, _⟩ => show 0 + 1 * i.val = i.val; omega
  | ⟨2, _⟩ => show 0 + 1 * j.val = j.val; omega

/-- A load of the row at offset `(l, 0)` of a table `[g, a]` reads, at `(0, i)`, the table at `(l, i)`. -/
theorem ld_row_apply {Val : EltTy → Type} {e : EltTy} {g a : ℕ} (X : (⟨2, ![g, a]⟩ : Shape).Idx → Val e) (l : Fin g)
    (inb : ∀ ax, (![l.val, 0] : Fin 2 → ℕ) ax + (![1, a] : Fin 2 → ℕ) ax ≤ (⟨2, ![g, a]⟩ : Shape).size ax)
    (i : Fin a) :
    View.ld X (Rect.unit (s := ⟨2, ![g, a]⟩) ![l.val, 0] ![1, a] inb) (ix2 (0 : Fin 1) i) = X (ix2 l i) := by
  refine congrArg X (funext fun ax => Fin.ext ?_)
  match ax with
  | ⟨0, _⟩ => show l.val + 1 * 0 = l.val; omega
  | ⟨1, _⟩ => show 0 + 1 * i.val = i.val; omega

end Cert.ColLayout

end
-- ==== Proof.KernelCols.lean ====
/-
  The kernel's body at an entry of its output block.

  One grid step holds a block of 8192 rows as columns: the input block is [3, 8192] (coordinate `k` of row `n`
  at `(k, n)`), every hidden stage is [128, 8192], the output block is [3, 8192]. The input layer adds to the
  bias column, one at a time, the three products of a weight column with an input row, both broadcast over the
  block; each later layer is the weights times the stage before (a product into a zero accumulator) plus the
  bias column broadcast along the lanes, and the hidden layers take the maximum with zero. Changes of float
  format are the identity on the extended reals. Read at `(j, n)`, every stage is therefore the dense layer of
  the specification applied to column `n` of the stage before, and the block's entry `(j, n)` is the network on
  column `n` of the input block.
-/
import proofs.«170339_j85461259255883_2_alg».proof.Proof.Gen.KernelIdeal.Frame
import proofs.«170339_j85461259255883_2_alg».proof.Proof.MlpSpec
import proofs.«170339_j85461259255883_2_alg».proof.Proof.LibPlainMatmul
import proofs.«170339_j85461259255883_2_alg».proof.Proof.LibColLayout
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.Mlp.Kern

open Cert.KernelIdeal Cert.KernelIdeal.Gen Idealize.ShloMosaic Idealize.ShloMosaic.ValueIdx Cert.Mlp Cert.ColLayout

/-- The weights of a loaded slab `[1, 128, 128]` and the bias of a loaded row `[1, 128]`, by coordinates. -/
abbrev slab (W : FVec Ideal S1x128x128 .bf16) : Fin 128 → Fin 128 → EReal := fun a b => W (ix3 (0 : Fin 1) a b)
abbrev brow (b : FVec Ideal S1x128 .f32) : Fin 128 → EReal := fun a => b (ix2 (0 : Fin 1) a)

/-! ## One operation at a time -/

/-- A loaded bias row `[1, 128]`, flattened, stood up as a column and broadcast along the lanes. -/
theorem bias_col (b : FVec Ideal S1x128 .f32) (h1 : S1x128.ShapeCasts S128) (h2 : S128.ShapeCasts S128x1)
    (h3 : S128x1.Broadcasts S128x8192) (j : Fin 128) (n : Fin 8192) :
    broadcastTo S128x8192 (shapeCast S128x1 (shapeCast S128 b h1) h2) h3 (ix2 j n) = brow b j :=
  (broadcastTo_a1_ab_apply _ h3 j n).trans ((shapeCast_a_a1_apply _ h2 j 0).trans (shapeCast_1a_a_apply b h1 j))

/-- The first bias `[128]`, stood up as a column and broadcast along the lanes. -/
theorem bias_in_col (b : FVec Ideal S128 .f32) (h1 : S128.ShapeCasts S128x1) (h3 : S128x1.Broadcasts S128x8192)
    (j : Fin 128) (n : Fin 8192) : broadcastTo S128x8192 (shapeCast S128x1 b h1) h3 (ix2 j n) = b (ix1 j) :=
  (broadcastTo_a1_ab_apply _ h3 j n).trans (shapeCast_a_a1_apply b h1 j 0)

/-- The output bias `[3]`, stood up as a column and broadcast along the lanes. -/
theorem bias_out_col (b : FVec Ideal S3 .f32) (h1 : S3.ShapeCasts S3x1) (h2 : S3x1.Broadcasts S3x8192)
    (j : Fin 3) (n : Fin 8192) : broadcastTo S3x8192 (shapeCast S3x1 b h1) h2 (ix2 j n) = b (ix1 j) :=
  (broadcastTo_a1_ab_apply _ h2 j n).trans (shapeCast_a_a1_apply b h1 j 0)

/-- Column `c` of the first weights, broadcast along the lanes. -/
theorem w_col (c : Fin 3) (o : ℕ) (hc : c.val = o) (w : FVec Ideal S128x3 .f32) (hs : S128x3.Slices ![0, o] S128x1)
    (hb : S128x1.Broadcasts S128x8192) (j : Fin 128) (n : Fin 8192) :
    broadcastTo S128x8192 (extractStridedSlice S128x1 ![0, o] w hs) hb (ix2 j n) = w (ix2 j c) :=
  (broadcastTo_a1_ab_apply _ hb j n).trans (slice2_axis1_apply o w hs j 0 c (by rw [hc]; rfl))

/-- Row `c` of the input block, broadcast down the sublanes. -/
theorem x_row (c : Fin 3) (o : ℕ) (hc : c.val = o) (x : FVec Ideal S3x8192 .f32) (hs : S3x8192.Slices ![o, 0] S1x8192)
    (hb : S1x8192.Broadcasts S128x8192) (j : Fin 128) (n : Fin 8192) :
    broadcastTo S128x8192 (extractStridedSlice S1x8192 ![o, 0] x hs) hb (ix2 j n) = x (ix2 c n) :=
  (broadcastTo_1b_ab_apply _ hb j n).trans (slice2_axis0_apply o x hs 0 n c (by rw [hc]; rfl))

/-- Hidden weights times a stage, at `(j, n)`: row `j` of the weights against column `n` of the stage. -/
theorem mm_hidden (W : FVec Ideal S128x128 .bf16) (h : FVec Ideal S128x8192 .bf16) (j : Fin 128) (n : Fin 8192) :
    matmul dot_S128x128_S128x8192_S128x8192_1_0_0_1_n_n none W h (constant S128x8192 .f32 0x00000000#32) (ix2 j n)
      = ∑ k : Fin 128, W (ix2 j k) * h (ix2 k n) :=
  Cert.PlainMatmul.matmul_zero_apply (M := 128) (K := 128) (N := 8192) none W h j n

/-- Output weights times the last stage, at `(j, n)`. -/
theorem mm_out (W : FVec Ideal S3x128 .bf16) (h : FVec Ideal S128x8192 .bf16) (j : Fin 3) (n : Fin 8192) :
    matmul dot_S3x128_S128x8192_S3x8192_1_0_0_1_n_n none W h (constant S3x8192 .f32 0x00000000#32) (ix2 j n)
      = ∑ k : Fin 128, W (ix2 j k) * h (ix2 k n) :=
  Cert.PlainMatmul.matmul_zero_apply (M := 3) (K := 128) (N := 8192) none W h j n

/-- A loaded slab viewed as a matrix. -/
theorem slab_cast (W : FVec Ideal S1x128x128 .bf16) (h : S1x128x128.ShapeCasts S128x128) (a b : Fin 128) :
    shapeCast S128x128 W h (ix2 a b) = slab W a b := shapeCast_1ab_ab_apply W h a b

/-- A loaded bias row flattened, at `j`. -/
theorem brow_cast (b : FVec Ideal S1x128 .f32) (h : S1x128.ShapeCasts S128) (j : Fin 128) :
    shapeCast S128 b h (ix1 j) = brow b j := shapeCast_1a_a_apply b h j

/-- The zero splat's word is zero. -/
theorem zero_word : Scalar.ofBits (F := Ideal) .f32 0x00000000#32 = (0 : EReal) :=
  Ideal.ofBits_zero_f32

/-! ## The five pieces of the body

The body's arithmetic is cut into five terms; each is read at an entry in the vocabulary of the specification. -/

/-- The input layer and the first hidden layer. -/
theorem pay2_apply (v0 : Vec Ideal S3x8192 .f32) (v2 : Vec Ideal S128x3 .f32) (v3 : Vec Ideal S128 .f32)
    (v28 : Vec Ideal S1x128x128 .bf16) (v30 : Vec Ideal S1x128 .f32) (j : Fin 128) (n : Fin 8192) :
    k0_pay2 (F := Ideal) v0 v2 v3 v28 v30 (ix2 j n)
      = reluDense (slab v28) (brow v30) (reluDense (mat v2) (vec v3) (fun k => v0 (ix2 k n))) j := by
  unfold k0_pay2
  simp only [truncf_apply, maximumf_apply, addf_apply, mulf_apply, broadcast_apply, zero_word, mm_hidden, slab_cast,
    bias_col, bias_in_col, brow_cast, shapeCast_self, w_col 0 0 rfl, w_col 1 1 rfl, w_col 2 2 rfl, x_row 0 0 rfl, x_row 1 1 rfl,
    x_row 2 2 rfl]
  exact reluDense_left_of (slab v28) (brow v30) _ _
    (fun k => reluDense_three (mat v2) (vec v3) (fun c => v0 (ix2 c n)) k) j

/-- The second hidden layer's weights, viewed as a matrix. -/
theorem pay3_apply (v39 : Vec Ideal S1x128x128 .bf16) (a b : Fin 128) :
    k0_pay3 (F := Ideal) v39 (ix2 a b) = slab v39 a b := by
  unfold k0_pay3
  exact slab_cast v39 _ a b

/-- Hidden layers two to four, and the fifth's product before its bias. -/
theorem pay4_apply (v38 : FVec Ideal S128x8192 .bf16) (v40 : FVec Ideal S128x128 .bf16) (v41 : Vec Ideal S1x128 .f32)
    (v50 : Vec Ideal S1x128x128 .bf16) (v52 : Vec Ideal S1x128 .f32) (v61 : Vec Ideal S1x128x128 .bf16)
    (v63 : Vec Ideal S1x128 .f32) (v72 : Vec Ideal S1x128x128 .bf16) (j : Fin 128) (n : Fin 8192) :
    k0_pay4 (F := Ideal) v38 v40 v41 v50 v52 v61 v63 v72 (ix2 j n)
      = ∑ k, slab v72 j k * reluDense (slab v61) (brow v63) (reluDense (slab v50) (brow v52)
          (reluDense (mat v40) (brow v41) (fun c => v38 (ix2 c n)))) k := by
  unfold k0_pay4
  simp only [truncf_apply, maximumf_apply, addf_apply, broadcast_apply, zero_word, mm_hidden, slab_cast, bias_col, bias_in_col,
    brow_cast]
  exact Finset.sum_congr rfl fun k _ => congrArg (slab v72 j k * ·)
    (reluDense_left_of (slab v61) (brow v63) _ _ (fun k1 =>
      reluDense_left_of (slab v50) (brow v52) _ _ (fun k2 =>
        reluDense_left_of (mat v40) (brow v41) _ _ (fun _ => rfl) k2) k1) k)

/-- The fifth hidden layer's bias column over the block. -/
theorem pay5_apply (v74 : Vec Ideal S1x128 .f32) (j : Fin 128) (n : Fin 8192) :
    k0_pay5 (F := Ideal) v74 (ix2 j n) = brow v74 j := by
  unfold k0_pay5
  exact bias_col v74 _ _ _ j n

/-- The fifth hidden layer's sum and positive part, hidden layers six and seven, and the output layer. -/
theorem pay1_apply (v76 v78 : FVec Ideal S128x8192 .f32) (v83 : Vec Ideal S1x128x128 .bf16) (v85 : Vec Ideal S1x128 .f32)
    (v94 : Vec Ideal S1x128x128 .bf16) (v96 : Vec Ideal S1x128 .f32) (v105 : Vec Ideal S3x128 .bf16)
    (v107 : Vec Ideal S3 .f32) (j : Fin 3) (n : Fin 8192) :
    k0_pay1 (F := Ideal) v76 v78 v83 v85 v94 v96 v105 v107 (ix2 j n)
      = dense (mat v105) (vec v107) (reluDense (slab v94) (brow v96) (reluDense (slab v83) (brow v85)
          (fun c => max (v76 (ix2 c n) + v78 (ix2 c n)) 0))) j := by
  unfold k0_pay1
  simp only [truncf_apply, maximumf_apply, addf_apply, broadcast_apply, zero_word, mm_hidden, mm_out, slab_cast, bias_col,
    bias_in_col, brow_cast, bias_out_col, shapeCast_self]
  exact dense_left_of (mat v105) (vec v107) _ _ (fun k =>
    reluDense_left_of (slab v94) (brow v96) _ _ (fun k1 =>
      reluDense_left_of (slab v83) (brow v85) _ _ (fun _ => rfl) k1) k) j

end Cert.Mlp.Kern

end
-- ==== Proof.KernelBlock.lean ====
/-
  One grid step's output block at an entry.

  The body loads the input block and the weights whole, loads slab `l` of the hidden weights and row `l` of the
  hidden biases for each hidden layer, and stores its result through the whole output block. Put together,
  the five pieces of its arithmetic say: entry `(j, n)` of the block it leaves is the network of the
  specification, with the weights as the step finds them, applied to column `n` of the input block.
-/
import proofs.«170339_j85461259255883_2_alg».proof.Proof.KernelCols

noncomputable section

open scoped BigOperators

namespace Cert.Mlp.Kern

open Cert.KernelIdeal Cert.KernelIdeal.Gen Idealize.ShloMosaic Idealize.ShloMosaic.ValueIdx Cert.Mlp Cert.ColLayout

theorem hz1 : (![0] : Fin 1 → ℕ) = fun _ => 0 := funext fun a => by fin_cases a; rfl
theorem hz2 : (![0, 0] : Fin 2 → ℕ) = fun _ => 0 := funext fun a => by fin_cases a <;> rfl

/-- Slab `l` of the hidden weights, loaded, is the weights of hidden layer `l`. -/
theorem slab_ld (x3 : Vec Ideal S7x128x128 .bf16) (l : Fin 7)
    (inb : ∀ ax, (![l.val, 0, 0] : Fin 3 → ℕ) ax + S1x128x128.size ax ≤ S7x128x128.size ax) :
    slab (View.ld x3 (Rect.unit (s := S7x128x128) ![l.val, 0, 0] S1x128x128.size inb)) = ten x3 l :=
  funext fun a => funext fun b => ld_slab_apply x3 l inb a b

/-- Row `l` of the hidden biases, loaded, is the bias of hidden layer `l`. -/
theorem brow_ld (x4 : Vec Ideal S7x128 .f32) (l : Fin 7)
    (inb : ∀ ax, (![l.val, 0] : Fin 2 → ℕ) ax + S1x128.size ax ≤ S7x128.size ax) :
    brow (View.ld x4 (Rect.unit (s := S7x128) ![l.val, 0] S1x128.size inb)) = mat x4 l :=
  funext fun a => ld_row_apply x4 l inb a

/-- Entry `(j, n)` of the block one grid step leaves: the network applied to column `n` of the input block. -/
theorem block_apply (x0 : Vec Ideal S3x8192 .f32) (x1 : Vec Ideal S128x3 .f32) (x2 : Vec Ideal S128 .f32)
    (x3 : Vec Ideal S7x128x128 .bf16) (x4 : Vec Ideal S7x128 .f32) (x5 : Vec Ideal S3x128 .bf16) (x6 : Vec Ideal S3 .f32)
    (j : Fin 3) (n : Fin 8192) :
    out0_7 (F := Ideal) x0 x1 x2 x3 x4 x5 x6 (ix2 j n)
      = mlp (mat x1) (vec x2) (ten x3) (mat x4) (mat x5) (vec x6) (fun k => x0 (ix2 k n)) j := by
  unfold out0_7
  rw [View.canon_unit_zero hz2]
  simp only [View.ld_unit_zero (S := S3x8192) hz2, View.ld_unit_zero (S := S128x3) hz2, View.ld_unit_zero (S := S128) hz1,
    View.ld_unit_zero (S := S3x128) hz2, View.ld_unit_zero (S := S3) hz1]
  rw [pay1_apply]
  simp only [pay4_apply, pay5_apply, pay2_apply, pay3_apply]
  rw [show slab (View.ld x3 r0_3) = ten x3 0 from slab_ld x3 0 _,
    show brow (View.ld x4 r0_4) = mat x4 0 from brow_ld x4 0 _,
    show mat (k0_pay3 (F := Ideal) (View.ld x3 r0_5)) = ten x3 1 from
      funext fun a => funext fun b => (pay3_apply _ a b).trans (ld_slab_apply x3 1 _ a b),
    show brow (View.ld x4 r0_6) = mat x4 1 from brow_ld x4 1 _,
    show slab (View.ld x3 r0_7) = ten x3 2 from slab_ld x3 2 _,
    show brow (View.ld x4 r0_8) = mat x4 2 from brow_ld x4 2 _,
    show slab (View.ld x3 r0_9) = ten x3 3 from slab_ld x3 3 _,
    show brow (View.ld x4 r0_10) = mat x4 3 from brow_ld x4 3 _,
    show slab (View.ld x3 r0_11) = ten x3 4 from slab_ld x3 4 _,
    show brow (View.ld x4 r0_12) = mat x4 4 from brow_ld x4 4 _,
    show slab (View.ld x3 r0_13) = ten x3 5 from slab_ld x3 5 _,
    show brow (View.ld x4 r0_14) = mat x4 5 from brow_ld x4 5 _,
    show slab (View.ld x3 r0_15) = ten x3 6 from slab_ld x3 6 _,
    show brow (View.ld x4 r0_16) = mat x4 6 from brow_ld x4 6 _]
  unfold mlp
  exact congrArg (fun h => dense (mat x5) (vec x6) (reluDense (ten x3 6) (mat x4 6) (reluDense (ten x3 5) (mat x4 5) h)) j)
    (funext fun c => reluDense_left_of (ten x3 4) (mat x4 4) _ _ (fun _ => rfl) c)

end Cert.Mlp.Kern

end
-- ==== Proof.KernelArray.lean ====
/-
  From one grid step's block to the program's result.

  Before the region the host transposes the input to [3, 262144] and narrows the hidden and output weights to a
  shorter float format (the identity on the extended reals); the region runs 32 grid steps, step `t` on columns
  `8192 t … 8192 t + 8191`, every weight and bias whole at every step; after it the host transposes the region's
  [3, 262144] result back. Each step writes the network of the specification on its own columns, the 32 blocks tile
  the result, so the region's array ends holding, at `(j, N)`, the network on row `N` of the input, entry `j`, and
  the program's result at `(N, j)` is that number.
-/
import proofs.«170339_j85461259255883_2_alg».proof.Proof.KernelBlock
import Idealize.ShloMosaic.Lib.StableHlo.Run
import Idealize.ShloMosaic.Lib.Pipeline.Value
import Idealize.ShloMosaic.Lib.ValueLayout

noncomputable section

open scoped BigOperators

namespace Cert.Mlp.Kern

open Cert.KernelIdeal Cert.KernelIdeal.Gen Idealize.ShloMosaic Idealize.ShloMosaic.TcCoe Idealize.ShloMosaic.ValueIdx
open Idealize.SL Idealize.SL.Sem Cert.Mlp
open Idealize.ShloMosaic.Pipeline (Dat Cfg Window)

variable (m : (ℓ : Loc nD τ sig) → Buf (Elt Ideal) ℓ) (ρ : Dev nD → PrngReg)

/-! ## The arrays as the region finds them -/

/-- The host transposes the input before the region: the region's first operand is the input with its axes swapped. -/
theorem V_v0 (c : Dev nD) : (V m c main_v0 : S3x262144.Idx → EReal)
    = transpose S3x262144 [1, 0] (m ((c : Thread nD τ).loc main_arg0) : S262144x3.Idx → EReal) transposes_S262144x3_S3x262144_1_0 := by
  show StableHlo.after hostOps0 (fun b => m (c, b)) (Proc.devRef .tc main_v0) = _
  after_results

/-- The hidden weights narrowed to a shorter float format are, as extended reals, the hidden weights. -/
theorem V_v1 (c : Dev nD) : (V m c main_v1 : S7x128x128.Idx → EReal) = (m ((c : Thread nD τ).loc main_arg3) : S7x128x128.Idx → EReal) := by
  show StableHlo.after hostOps0 (fun b => m (c, b)) (Proc.devRef .tc main_v1) = _
  after_results
  rfl

/-- The same for the output weights. -/
theorem V_v2 (c : Dev nD) : (V m c main_v2 : S3x128.Idx → EReal) = (m ((c : Thread nD τ).loc main_arg5) : S3x128.Idx → EReal) := by
  show StableHlo.after hostOps0 (fun b => m (c, b)) (Proc.devRef .tc main_v2) = _
  after_results
  rfl

/-! ## The blocks of a grid step

The grid has 32 steps; step `t` takes columns `8192 t … 8192 t + 8191` of the transposed input and of the
transposed result, and every weight and bias whole. -/

theorem idx_facts : ∀ t : Fin cfg0.N, win0_0.index t (0 : Fin 2) = 0 ∧ win0_0.index t (1 : Fin 2) = t.val
    ∧ win0_1.index t (0 : Fin 2) = 0 ∧ win0_1.index t (1 : Fin 2) = 0
    ∧ win0_2.index t (0 : Fin 1) = 0
    ∧ win0_3.index t (0 : Fin 3) = 0 ∧ win0_3.index t (1 : Fin 3) = 0 ∧ win0_3.index t (2 : Fin 3) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 1) = 0
    ∧ win0_7.index t (0 : Fin 2) = 0 ∧ win0_7.index t (1 : Fin 2) = t.val :=
  (by decide +kernel : ∀ t : Fin grid0.N, _)

/-- Column `n` of step `t`'s input block is column `8192 t + n` of the transposed input. -/
theorem iblk0 (c : Dev nD) (t : Fin cfg0.N) (k : Fin 3) (n : Fin 8192) (N : Fin 262144) (hN : N.val = t.val * 8192 + n.val) :
    (iblk m c 0 t : Vec Ideal S3x8192 .f32) (ix2 k n) = (V m c main_v0 : S3x262144.Idx → EReal) (ix2 k N) := by
  obtain ⟨e0, e1, -⟩ := idx_facts t
  show V m c main_v0 (((cfg0.win 0).blk t).view.emb (ix2 k n)) = V m c main_v0 (ix2 k N)
  refine congrArg _ (funext fun a => Fin.ext ?_)
  match a with
  | ⟨0, _⟩ => show win0_0.index t (0 : Fin 2) * 3 + 1 * k.val = k.val; omega
  | ⟨1, _⟩ => show win0_0.index t (1 : Fin 2) * 8192 + 1 * n.val = N.val; omega

theorem iblk1 (c : Dev nD) (t : Fin cfg0.N) (y : S128x3.Idx) :
    (iblk m c 1 t : Vec Ideal S128x3 .f32) y = (V m c main_arg1 : S128x3.Idx → EReal) y := by
  obtain ⟨-, -, e0, e1, -⟩ := idx_facts t
  show V m c main_arg1 (((cfg0.win 1).blk t).view.emb y) = V m c main_arg1 y
  refine congrArg _ (funext fun a => Fin.ext ?_)
  match a with
  | ⟨0, _⟩ => show win0_1.index t (0 : Fin 2) * 128 + 1 * (y 0).val = (y 0).val; omega
  | ⟨1, _⟩ => show win0_1.index t (1 : Fin 2) * 3 + 1 * (y 1).val = (y 1).val; omega

theorem iblk2 (c : Dev nD) (t : Fin cfg0.N) (y : S128.Idx) :
    (iblk m c 2 t : Vec Ideal S128 .f32) y = (V m c main_arg2 : S128.Idx → EReal) y := by
  obtain ⟨-, -, -, -, e0, -⟩ := idx_facts t
  show V m c main_arg2 (((cfg0.win 2).blk t).view.emb y) = V m c main_arg2 y
  refine congrArg _ (funext fun a => Fin.ext ?_)
  match a with
  | ⟨0, _⟩ => show win0_2.index t (0 : Fin 1) * 128 + 1 * (y 0).val = (y 0).val; omega

theorem iblk3 (c : Dev nD) (t : Fin cfg0.N) (y : S7x128x128.Idx) :
    (iblk m c 3 t : Vec Ideal S7x128x128 .bf16) y = (V m c main_v1 : S7x128x128.Idx → EReal) y := by
  obtain ⟨-, -, -, -, -, e0, e1, e2, -⟩ := idx_facts t
  show V m c main_v1 (((cfg0.win 3).blk t).view.emb y) = V m c main_v1 y
  refine congrArg _ (funext fun a => Fin.ext ?_)
  match a with
  | ⟨0, _⟩ => show win0_3.index t (0 : Fin 3) * 7 + 1 * (y 0).val = (y 0).val; omega
  | ⟨1, _⟩ => show win0_3.index t (1 : Fin 3) * 128 + 1 * (y 1).val = (y 1).val; omega
  | ⟨2, _⟩ => show win0_3.index t (2 : Fin 3) * 128 + 1 * (y 2).val = (y 2).val; omega

theorem iblk4 (c : Dev nD) (t : Fin cfg0.N) (y : S7x128.Idx) :
    (iblk m c 4 t : Vec Ideal S7x128 .f32) y = (V m c main_arg4 : S7x128.Idx → EReal) y := by
  obtain ⟨-, -, -, -, -, -, -, -, e0, e1, -⟩ := idx_facts t
  show V m c main_arg4 (((cfg0.win 4).blk t).view.emb y) = V m c main_arg4 y
  refine congrArg _ (funext fun a => Fin.ext ?_)
  match a with
  | ⟨0, _⟩ => show win0_4.index t (0 : Fin 2) * 7 + 1 * (y 0).val = (y 0).val; omega
  | ⟨1, _⟩ => show win0_4.index t (1 : Fin 2) * 128 + 1 * (y 1).val = (y 1).val; omega

theorem iblk5 (c : Dev nD) (t : Fin cfg0.N) (y : S3x128.Idx) :
    (iblk m c 5 t : Vec Ideal S3x128 .bf16) y = (V m c main_v2 : S3x128.Idx → EReal) y := by
  obtain ⟨-, -, -, -, -, -, -, -, -, -, e0, e1, -⟩ := idx_facts t
  show V m c main_v2 (((cfg0.win 5).blk t).view.emb y) = V m c main_v2 y
  refine congrArg _ (funext fun a => Fin.ext ?_)
  match a with
  | ⟨0, _⟩ => show win0_5.index t (0 : Fin 2) * 3 + 1 * (y 0).val = (y 0).val; omega
  | ⟨1, _⟩ => show win0_5.index t (1 : Fin 2) * 128 + 1 * (y 1).val = (y 1).val; omega

theorem iblk6 (c : Dev nD) (t : Fin cfg0.N) (y : S3.Idx) :
    (iblk m c 6 t : Vec Ideal S3 .f32) y = (V m c main_arg6 : S3.Idx → EReal) y := by
  obtain ⟨-, -, -, -, -, -, -, -, -, -, -, -, e0, -⟩ := idx_facts t
  show V m c main_arg6 (((cfg0.win 6).blk t).view.emb y) = V m c main_arg6 y
  refine congrArg _ (funext fun a => Fin.ext ?_)
  match a with
  | ⟨0, _⟩ => show win0_6.index t (0 : Fin 1) * 3 + 1 * (y 0).val = (y 0).val; omega

/-! ## What the region writes -/

/-- The transposed result: at `(j, N)` the network on row `N` of the input, entry `j`. -/
def Gt (c : Dev nD) : S3x262144.Idx → EReal := fun i =>
  rowOut (m ((c : Thread nD τ).loc main_arg0) : S262144x3.Idx → EReal) (m ((c : Thread nD τ).loc main_arg1) : S128x3.Idx → EReal)
    (m ((c : Thread nD τ).loc main_arg2) : S128.Idx → EReal) (m ((c : Thread nD τ).loc main_arg3) : S7x128x128.Idx → EReal)
    (m ((c : Thread nD τ).loc main_arg4) : S7x128.Idx → EReal) (m ((c : Thread nD τ).loc main_arg5) : S3x128.Idx → EReal)
    (m ((c : Thread nD τ).loc main_arg6) : S3.Idx → EReal) (i 1) (i 0)

/-- What grid step `t` writes back is block `t` of the transposed result: its entry `(j, n)` is the network on column
    `n` of the step's input block, which is row `8192 t + n` of the input, with the weights as launched. -/
theorem flushed_eq (c : Dev nD) (t : Fin cfg0.N) :
    (dats m 0 c).flushed 7 t = ((cfg0.win 7).blk t).view.read (Elt Ideal) (Gt m c) := by
  show (cfg0.win 7).cut (grid0.coords t) ((dats m 0 c).after 7 t) = _
  rw [after0_7]
  funext y
  obtain ⟨j, n, rfl⟩ : ∃ (j : Fin 3) (n : Fin 8192), y = ix2 j n := ⟨y 0, y 1, eq_ix2 y⟩
  obtain ⟨-, -, -, -, -, -, -, -, -, -, -, -, -, e0, e1⟩ := idx_facts t
  have ht : t.val < 32 := Nat.lt_of_lt_of_eq t.isLt N_0
  have hn : n.val < 8192 := n.isLt
  have hNlt : t.val * 8192 + n.val < 262144 := by omega
  have hemb : ((cfg0.win 7).blk t).view.emb (ix2 j n) = (ix2 j ⟨t.val * 8192 + n.val, hNlt⟩ : S3x262144.Idx) := by
    funext a; apply Fin.ext
    match a with
    | ⟨0, _⟩ => show win0_7.index t (0 : Fin 2) * 3 + 1 * j.val = j.val; omega
    | ⟨1, _⟩ => show win0_7.index t (1 : Fin 2) * 8192 + 1 * n.val = t.val * 8192 + n.val; omega
  show out0_7 (F := Ideal) (iblk m c 0 t) (iblk m c 1 t) (iblk m c 2 t) (iblk m c 3 t) (iblk m c 4 t) (iblk m c 5 t) (iblk m c 6 t) (ix2 j n)
    = Gt m c (((cfg0.win 7).blk t).view.emb (ix2 j n))
  rw [hemb]
  refine (block_apply _ _ _ _ _ _ _ j n).trans ?_
  have h0 : (fun k => (iblk m c 0 t : Vec Ideal S3x8192 .f32) (ix2 k n))
      = fun k => (m ((c : Thread nD τ).loc main_arg0) : S262144x3.Idx → EReal) (ix2 ⟨t.val * 8192 + n.val, hNlt⟩ k) :=
    funext fun k => (iblk0 m c t k n ⟨t.val * 8192 + n.val, hNlt⟩ rfl).trans
      ((congrFun (V_v0 m c) (ix2 k ⟨t.val * 8192 + n.val, hNlt⟩)).trans (transpose_ix2_apply _ _ k ⟨t.val * 8192 + n.val, hNlt⟩))
  have h1 : mat (iblk m c 1 t : Vec Ideal S128x3 .f32) = mat (m ((c : Thread nD τ).loc main_arg1) : S128x3.Idx → EReal) :=
    funext fun a => funext fun b => (iblk1 m c t (ix2 a b)).trans (congrFun (V_main_arg1 m c) (ix2 a b))
  have h2 : vec (iblk m c 2 t : Vec Ideal S128 .f32) = vec (m ((c : Thread nD τ).loc main_arg2) : S128.Idx → EReal) :=
    funext fun a => (iblk2 m c t (ix1 a)).trans (congrFun (V_main_arg2 m c) (ix1 a))
  have h3 : ten (iblk m c 3 t : Vec Ideal S7x128x128 .bf16) = ten (m ((c : Thread nD τ).loc main_arg3) : S7x128x128.Idx → EReal) :=
    funext fun l => funext fun a => funext fun b => (iblk3 m c t (ix3 l a b)).trans (congrFun (V_v1 m c) (ix3 l a b))
  have h4 : mat (iblk m c 4 t : Vec Ideal S7x128 .f32) = mat (m ((c : Thread nD τ).loc main_arg4) : S7x128.Idx → EReal) :=
    funext fun a => funext fun b => (iblk4 m c t (ix2 a b)).trans (congrFun (V_main_arg4 m c) (ix2 a b))
  have h5 : mat (iblk m c 5 t : Vec Ideal S3x128 .bf16) = mat (m ((c : Thread nD τ).loc main_arg5) : S3x128.Idx → EReal) :=
    funext fun a => funext fun b => (iblk5 m c t (ix2 a b)).trans (congrFun (V_v2 m c) (ix2 a b))
  have h6 : vec (iblk m c 6 t : Vec Ideal S3 .f32) = vec (m ((c : Thread nD τ).loc main_arg6) : S3.Idx → EReal) :=
    funext fun a => (iblk6 m c t (ix1 a)).trans (congrFun (V_main_arg6 m c) (ix1 a))
  rw [h0, h1, h2, h3, h4, h5, h6]
  rfl

/-- Every column of the transposed result lies in some step's block: column `N` in step `N / 8192`. -/
theorem cover (i : S3x262144.Idx) :
    ∃ t : Fin cfg0.N, (cfg0.win 7).flush t = true ∧ i ∈ ((cfg0.win 7).blk t).view.set := by
  have hi0 : (i 0).val < 3 := (i 0).isLt
  have hi1 : (i 1).val < 262144 := (i 1).isLt
  obtain ⟨t, ht⟩ : ∃ t : Fin cfg0.N, t.val = (i 1).val / 8192 :=
    ⟨⟨(i 1).val / 8192, Nat.lt_of_lt_of_eq (by omega : (i 1).val / 8192 < 32) N_0.symm⟩, rfl⟩
  obtain ⟨-, -, -, -, -, -, -, -, -, -, -, -, -, e0, e1⟩ := idx_facts t
  refine ⟨t, flush0_7 t, ?_⟩
  show i ∈ ((View.whole main_v3).slice (win0_7.rect t)).set
  rw [View.set_slice_whole, Rect.mem_set_unit]
  intro a
  match a with
  | ⟨0, _⟩ => show win0_7.index t (0 : Fin 2) * 3 ≤ (i 0).val ∧ (i 0).val < win0_7.index t (0 : Fin 2) * 3 + 3; omega
  | ⟨1, _⟩ => show win0_7.index t (1 : Fin 2) * 8192 ≤ (i 1).val ∧ (i 1).val < win0_7.index t (1 : Fin 2) * 8192 + 8192; omega

/-- So the region's result array ends holding the transposed result. -/
theorem final (c : Dev nD) : (dats m 0 c).arrAt 7 cfg0.N = Gt m c :=
  (dats m 0 c).arrAt_eq_of_cover 7 (Gt m c) (fun t _ => flushed_eq m c t) cover

/-- The network on every row of the input: the program's result. -/
def result (c : Dev nD) : S262144x3.Idx → EReal := fun i =>
  rowOut (m ((c : Thread nD τ).loc main_arg0) : S262144x3.Idx → EReal) (m ((c : Thread nD τ).loc main_arg1) : S128x3.Idx → EReal)
    (m ((c : Thread nD τ).loc main_arg2) : S128.Idx → EReal) (m ((c : Thread nD τ).loc main_arg3) : S7x128x128.Idx → EReal)
    (m ((c : Thread nD τ).loc main_arg4) : S7x128.Idx → EReal) (m ((c : Thread nD τ).loc main_arg5) : S3x128.Idx → EReal)
    (m ((c : Thread nD τ).loc main_arg6) : S3.Idx → EReal) (i 0) (i 1)

/-- The host's last operation transposes the region's array: the result buffer ends at `result`. -/
theorem tail_eq (c : Dev nD) :
    (Pipeline.afterTail₀ cfgs (dats m) 0 (V0 m) [hostOps1] c main_v4 : S262144x3.Idx → EReal) = result m c := by
  unfold Pipeline.afterTail₀
  show StableHlo.after hostOps1 _ (Proc.devRef .tc main_v4) = _
  after_results
  have e : Pipeline.withArrays (cfgs 0).spec c (V0 m c) (fun w => (dats m 0 c).arrAt w (cfgs 0).N) (Proc.devRef .tc main_v3) = Gt m c :=
    (Pipeline.withArrays_arr spec0 winFacts0.arr_inj c _ _ 7).trans (final m c)
  rw [e]
  funext i
  obtain ⟨n, j, rfl⟩ : ∃ (n : Fin 262144) (j : Fin 3), i = ix2 n j := ⟨i 0, i 1, eq_ix2 i⟩
  exact transpose_ix2_apply (Gt m c) _ n j

/-- The run, read: every weakly fair execution terminates with the result buffer at `result` and the arguments
    unchanged. -/
theorem run : θ_run defs (onTc (τ := τ) (main (F := Ideal))) ⟨m, fun _ => 0, ρ⟩ fun r => ∀ c : Dev nD,
      r.2.mem ((c.tc : Thread nD τ).loc main_v4) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c =>
    ⟨((h c).2 main_v4 (Pipeline.mem_restRefs_of main_v4 (by decide) (by decide))).trans (tail_eq m c),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).2 main_arg3 (Pipeline.mem_restRefs_of main_arg3 (by decide) (by decide))).trans (W_main_arg3 m (dats m) c),
      ((h c).1 4).trans (((dats m 0 c).arrAt_in 4 rfl _).trans ((A_eq m c 4).trans (V_main_arg4 m c))),
      ((h c).2 main_arg5 (Pipeline.mem_restRefs_of main_arg5 (by decide) (by decide))).trans (W_main_arg5 m (dats m) c),
      ((h c).1 6).trans (((dats m 0 c).arrAt_in 6 rfl _).trans ((A_eq m c 6).trans (V_main_arg6 m c)))⟩)
    (run_main m ρ)

end Cert.Mlp.Kern

end
-- ==== Proof.lean ====
/-
  An eight-layer perceptron on 262144 rows of three numbers, computed two ways.

  The reference applies, to the whole [262144, ·] matrix, a dense layer 3 → 128, seven dense layers 128 → 128 and a
  dense layer 128 → 3, each `h ↦ h · Wᵀ + b`, the first eight followed by the maximum with zero. The kernel
  transposes the input, and on each of 32 blocks of 8192 rows kept as columns computes the same network as
  `W · hᵀ + b` — the first layer as three multiply-adds of a weight column with an input row, the others as
  matrix products into a zero accumulator — with the hidden and output weights narrowed to a shorter float
  format, then transposes the result back.

  Over the extended reals a change of float format is the identity and a product into the zero accumulator is a
  plain sum, so at entry `(n, j)` both programs hold the network of the specification (Proof/MlpSpec.lean)
  applied to row `n` of the input: the reference layer by layer (Proof/RefRows.lean), the kernel block by block
  (Proof/KernelCols.lean, Proof/KernelBlock.lean, Proof/KernelArray.lean). The two spellings of one dense entry,
  `∑ h·w + b` and `∑ w·h + b` (or `((b + w₀x₀) + w₁x₁) + w₂x₂` for the first layer), differ by the
  commutativity of `*` and the commutativity and associativity of `+` only, which hold at the infinities; the
  precondition that the inputs are finite is not used.

  The three frames are the generated ones (the reference's is its run with the result dropped), and the
  idealized kernel is the kernel's own text read over the extended reals: no operation was rewritten, so there
  is nothing to preserve.
-/
import proofs.«170339_j85461259255883_2_alg».proof.Defs
import proofs.«170339_j85461259255883_2_alg».proof.Proof.Gen.Kernel
import proofs.«170339_j85461259255883_2_alg».proof.Proof.Gen.Kernel.Skeleton
import proofs.«170339_j85461259255883_2_alg».proof.Proof.Gen.Kernel.Launch
import proofs.«170339_j85461259255883_2_alg».proof.Proof.Gen.Kernel.Points
import proofs.«170339_j85461259255883_2_alg».proof.Proof.Gen.Kernel.Frame
import proofs.«170339_j85461259255883_2_alg».proof.Proof.Gen.KernelIdeal
import proofs.«170339_j85461259255883_2_alg».proof.Proof.Gen.KernelIdeal.Skeleton
import proofs.«170339_j85461259255883_2_alg».proof.Proof.Gen.KernelIdeal.Launch
import proofs.«170339_j85461259255883_2_alg».proof.Proof.Gen.KernelIdeal.Points
import proofs.«170339_j85461259255883_2_alg».proof.Proof.Gen.KernelIdeal.Frame
import proofs.«170339_j85461259255883_2_alg».proof.Proof.Gen.ReferenceIdeal
import proofs.«170339_j85461259255883_2_alg».proof.Proof.Gen.Pre_finite_inputs
import proofs.«170339_j85461259255883_2_alg».proof.Proof.Gen.ReferenceIdeal.Run
import proofs.«170339_j85461259255883_2_alg».proof.Proof.Gen.ReferenceIdeal.Read
import proofs.«170339_j85461259255883_2_alg».proof.Proof.RefRows
import proofs.«170339_j85461259255883_2_alg».proof.Proof.KernelArray
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end with the network of the specification on every row of the input: the kernel's run has its
    result buffer there, and the reference's result term is that array once its arguments are rewritten to the
    kernel's by their agreement. -/
theorem algebraic : Cert.algebraic_KernelIdeal_ReferenceIdeal := by
  intro m ρ m' ρ' _ hagree
  refine ⟨fun c => Cert.Mlp.Kern.result m c, Cert.Mlp.Kern.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v80_eq, Cert.Mlp.Ref.result_eq, (hagree c).1, (hagree c).2.1, (hagree c).2.2.1, (hagree c).2.2.2.1, (hagree c).2.2.2.2.1, (hagree c).2.2.2.2.2.1, (hagree c).2.2.2.2.2.2]
  rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
